-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S25x256 : S_.BroadcastsInDim S25x256 (![] : Fin 0 → Fin S25x256.rank)
  reducesTo_S25x256_S_d0_1 : S25x256.ReducesTo [0, 1] S_
  bcast_S_S3x25 : S_.BroadcastsInDim S3x25 (![] : Fin 0 → Fin S3x25.rank)
  reducesTo_S3x25_S_d0_1 : S3x25.ReducesTo [0, 1] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg4 : FVec F S3x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S32x256x56x56 .f32) (main_arg1 : FVec F S25x256 .f32) (main_arg2 : FVec F S3x25 .f32) (main_arg3 : FVec F S3x256 .f32) (main_arg4 : FVec F S3x256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S25x256 .f32 := Host.absf main_arg1
  let main_cst_0 : FVec F S_ .f32 := constant S_ .f32 0x7F800000#32
  let main_v5 : FVec F S25x256 .f32 := broadcastInDim S25x256 ![] bcast_S_S25x256 main_cst_0
  let main_v6 : IVec S25x256 1 := cmpf .olt main_v4 main_v5
  let main_c_1 : IVec S_ 1 := constantI S_ 1 1#1
  let main_v7 : IVec S_ 1 := (fun x v => Host.reduce IntOp.andi x v reducesTo_S25x256_S_d0_1 h_S_) main_v6 main_c_1
  let main_v8 : IVec S_ 1 := andi main_v3 main_v7
  let main_v9 : FVec F S3x25 .f32 := Host.absf main_arg2
  let main_cst_2 : FVec F S_ .f32 := constant S_ .f32 0x7F800000#32
  let main_v10 : FVec F S3x25 .f32 := broadcastInDim S3x25 ![] bcast_S_S3x25 main_cst_2
  let main_v11 : IVec S3x25 1 := cmpf .olt main_v9 main_v10
  let main_c_3 : IVec S_ 1 := constantI S_ 1 1#1
  let main_v12 : IVec S_ 1 := (fun x v => Host.reduce IntOp.andi x v reducesTo_S3x25_S_d0_1 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg4 main_v13 main_v16
-- ==== Kernel.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S32x256x1 : Shape := ⟨3, ![32, 256, 1]⟩
abbrev S2x256x56x56 : Shape := ⟨4, ![2, 256, 56, 56]⟩
abbrev S2x256x1 : Shape := ⟨3, ![2, 256, 1]⟩
abbrev S2x256x56 : Shape := ⟨3, ![2, 256, 56]⟩
abbrev S2x256 : Shape := ⟨2, ![2, 256]⟩
abbrev S32x256 : Shape := ⟨2, ![32, 256]⟩
abbrev S_ : Shape := ⟨0, ![]⟩
abbrev S256 : Shape := ⟨1, ![256]⟩
abbrev S256x25 : Shape := ⟨2, ![256, 25]⟩
abbrev S32x25 : Shape := ⟨2, ![32, 25]⟩
abbrev S25x3 : Shape := ⟨2, ![25, 3]⟩
abbrev S32x3 : Shape := ⟨2, ![32, 3]⟩
abbrev S32 : Shape := ⟨1, ![32]⟩
abbrev S32x1 : Shape := ⟨2, ![32, 1]⟩
abbrev S1x256 : Shape := ⟨2, ![1, 256]⟩
abbrev S32x256x1x1 : Shape := ⟨4, ![32, 256, 1, 1]⟩
abbrev S1x256x56x56 : Shape := ⟨4, ![1, 256, 56, 56]⟩
abbrev S1x256x1x1 : Shape := ⟨4, ![1, 256, 1, 1]⟩

abbrev nBuf : Space → Nat
  | .hbm => 68
  | .vmem => 14
  | .smem => 0
  | _ => 0

abbrev bufTy : (tb : Table) → Fin (tcTables nBuf tb) → BufTy
  | .hbm, ⟨0, _⟩ => ⟨S32x256x56x56, .f32⟩
  | .hbm, ⟨1, _⟩ => ⟨S25x256, .f32⟩
  | .hbm, ⟨2, _⟩ => ⟨S3x25, .f32⟩
  | .hbm, ⟨3, _⟩ => ⟨S3x256, .f32⟩
  | .hbm, ⟨4, _⟩ => ⟨S3x256, .f32⟩
  | .hbm, ⟨5, _⟩ => ⟨S32x256x1, .f32⟩
  | .hbm, ⟨6, _⟩ => ⟨S32x256x1, .f32⟩
  | .hbm, ⟨7, _⟩ => ⟨S32x256, .f32⟩
  | .hbm, ⟨8, _⟩ => ⟨S32x256, .f32⟩
  | .hbm, ⟨9, _⟩ => ⟨S_, .f32⟩
  | .hbm, ⟨10, _⟩ => ⟨S32x256, .f32⟩
  | .hbm, ⟨11, _⟩ => ⟨S32x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256x25, .f32⟩
  | .hbm, ⟨25, _⟩ => ⟨S32x25, .f32⟩
  | .hbm, ⟨26, _⟩ => ⟨S_, .f32⟩
  | .hbm, ⟨27, _⟩ => ⟨S32x25, .f32⟩
  | .hbm, ⟨28, _⟩ => ⟨S32x25, .i1⟩
  | .hbm, ⟨29, _⟩ => ⟨S_, .f32⟩
  | .hbm, ⟨30, _⟩ => ⟨S32x25, .f32⟩
  | .hbm, ⟨31, _⟩ => ⟨S32x25, .f32⟩
  | .hbm, ⟨32, _⟩ => ⟨S32x25, .f32⟩
  | .hbm, ⟨33, _⟩ => ⟨S25x3, .f32⟩
  | .hbm, ⟨34, _⟩ => ⟨S32x3, .f32⟩
  | .hbm, ⟨35, _⟩ => ⟨S_, .f32⟩
  | .hbm, ⟨36, _⟩ => ⟨S32x3, .f32⟩
  | .hbm, ⟨37, _⟩ => ⟨S32x3, .f32⟩
  | .hbm, ⟨38, _⟩ => ⟨S_, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32x1, .f32⟩
  | .hbm, ⟨44, _⟩ => ⟨S32x3, .f32⟩
  | .hbm, ⟨45, _⟩ => ⟨S32x3, .f32⟩
  | .hbm, ⟨46, _⟩ => ⟨S32x3, .f32⟩
  | .hbm, ⟨47, _⟩ => ⟨S_, .f32⟩
  | .hbm, ⟨48, _⟩ => ⟨S32, .f32⟩
  | .hbm, ⟨49, _⟩ => ⟨S32x1, .f32⟩
  | .hbm, ⟨50, _⟩ => ⟨S32x3, .f32⟩
  | .hbm, ⟨51, _⟩ => ⟨S32x3, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S32x256, .f32⟩
  | .hbm, ⟨57, _⟩ => ⟨S32x256, .f32⟩
  | .hbm, ⟨58, _⟩ => ⟨S1x256, .f32⟩
  | .hbm, ⟨59, _⟩ => ⟨S32x256, .f32⟩
  | .hbm, ⟨60, _⟩ => ⟨S32x256, .f32⟩
  | .hbm, ⟨61, _⟩ => ⟨S1x256, .f32⟩
  | .hbm, ⟨62, _⟩ => ⟨S32x256, .f32⟩
  | .hbm, ⟨63, _⟩ => ⟨S32x256, .f32⟩
  | .hbm, ⟨64, _⟩ => ⟨S32x256, .f32⟩
  | .hbm, ⟨65, _⟩ => ⟨S32x256x1x1, .f32⟩
  | .hbm, ⟨66, _⟩ => ⟨S32x256x1x1, .f32⟩
  | .hbm, ⟨67, _⟩ => ⟨S32x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S2x256x1, .f32⟩
  | .local _ .vmem, ⟨3, _⟩ => ⟨S2x256x1, .f32⟩
  | .local _ .vmem, ⟨4, _⟩ => ⟨S2x256x1, .f32⟩
  | .local _ .vmem, ⟨5, _⟩ => ⟨S2x256x1, .f32⟩
  | .local _ .vmem, ⟨6, _⟩ => ⟨S1x256x56x56, .f32⟩
  | .local _ .vmem, ⟨7, _⟩ => ⟨S1x256x56x56, .f32⟩
  | .local _ .vmem, ⟨8, _⟩ => ⟨S1x256x1x1, .f32⟩
  | .local _ .vmem, ⟨9, _⟩ => ⟨S1x256x1x1, .f32⟩
  | .local _ .vmem, ⟨10, _⟩ => ⟨S1x256x1x1, .f32⟩
  | .local _ .vmem, ⟨11, _⟩ => ⟨S1x256x1x1, .f32⟩
  | .local _ .vmem, ⟨12, _⟩ => ⟨S1x256x56x56, .f32⟩
  | .local _ .vmem, ⟨13, _⟩ => ⟨S1x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256x56 : S2x256x56x56.Reduces [3] S2x256x56
  reduces_S2x256x56_S2x256 : S2x256x56.Reduces [2] S2x256
  shapeCasts_S2x256_S2x256x1 : S2x256.ShapeCasts S2x256x1
  inb_S2x256x1_S2x256x1_0_0_0 : ∀ a, (![0, 0, 0] : Fin 3 → Nat) a + S2x256x1.size a ≤ S2x256x1.size a
  h_S2x256x1 : 0 < S2x256x1.numel
  shapeCasts_S32x256x1_S32x256 : S32x256x1.ShapeCasts S32x256
  bcast_S_S32x256 : S_.BroadcastsInDim S32x256 (![] : Fin 0 → Fin S32x256.rank)
  reducesTo_S32x256_S256_d0 : S32x256.ReducesTo [0] S256
  h_S_ : 0 < S_.numel
  bcast_S_S256 : S_.BroadcastsInDim S256 (![] : Fin 0 → Fin S256.rank)
  transposes_S25x256_S256x25_1_0 : S25x256.Transposes [1, 0] S256x25
  bcast_S_S32x25 : S_.BroadcastsInDim S32x25 (![] : Fin 0 → Fin S32x25.rank)
  transposes_S3x25_S25x3_1_0 : S3x25.Transposes [1, 0] S25x3
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x3_0_1 : S32x1.BroadcastsInDim S32x3 (![0, 1] : Fin 2 → Fin S32x3.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S32x256_S32x256x1x1 : S32x256.ShapeCasts S32x256x1x1
  inb_S1x256x56x56_S1x256x56x56_0_0_0_0 : ∀ a, (![0, 0, 0, 0] : Fin 4 → Nat) a + S1x256x56x56.size a ≤ S1x256x56x56.size a
  h_S1x256x56x56 : 0 < S1x256x56x56.numel
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  broadcasts_S1x256x1x1_S1x256x56x56 : S1x256x1x1.Broadcasts S1x256x56x56
  dot_S32x256_S256x25_S32x25_1_0_0_1_n_n_wf : DotDims.WF S32x256 S256x25 S32x25 [1] [0] [0] [1] [] []
  dot_S32x25_S25x3_S32x3_1_0_0_1_n_n_wf : DotDims.WF S32x25 S25x3 S32x3 [1] [0] [0] [1] [] []
  dot_S32x3_S3x256_S32x256_1_0_0_1_n_n_wf : DotDims.WF S32x3 S3x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S32x256x56x56.size a
  hwx0_0 : ∀ i : grid0.Coords, EltTy.bits .f32 = 32 ∨ (Rect.block (s := S32x256x56x56) S2x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1.size a ≤ S32x256x1.size a
  hwx0_1 : ∀ i : grid0.Coords, EltTy.bits .f32 = 32 ∨ (Rect.block (s := S32x256x1) S2x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S32x256x1.size a
  hwx0_2 : ∀ i : grid0.Coords, EltTy.bits .f32 = 32 ∨ (Rect.block (s := S32x256x1) S2x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S32x256x56x56.size a
  hwx1_0 : ∀ i : grid1.Coords, EltTy.bits .f32 = 32 ∨ (Rect.block (s := S32x256x56x56) S1x256x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S32x256x1x1.size a
  hwx1_1 : ∀ i : grid1.Coords, EltTy.bits .f32 = 32 ∨ (Rect.block (s := S32x256x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1x1.size a ≤ S32x256x1x1.size a
  hwx1_2 : ∀ i : grid1.Coords, EltTy.bits .f32 = 32 ∨ (Rect.block (s := S32x256x1x1) S1x256x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x56x56.size a ≤ S32x256x56x56.size a
  hwx1_3 : ∀ i : grid1.Coords, EltTy.bits .f32 = 32 ∨ (Rect.block (s := S32x256x56x56) S1x256x56x56.size (cc1_transform_3 i) (hinb1_3 i)).WholeWords (EltTy.packing .f32)

variable [Facts₀]

def dot_S32x256_S256x25_S32x25_1_0_0_1_n_n : DotDims S32x256 S256x25 S32x25 where
  lhsContracting := [1]
  rhsContracting := [0]
  lhsNonContracting := [0]
  rhsNonContracting := [1]
  lhsBatch := []
  rhsBatch := []
  wf := dot_S32x256_S256x25_S32x25_1_0_0_1_n_n_wf
def dot_S32x25_S25x3_S32x3_1_0_0_1_n_n : DotDims S32x25 S25x3 S32x3 where
  lhsContracting := [1]
  rhsContracting := [0]
  lhsNonContracting := [0]
  rhsNonContracting := [1]
  lhsBatch := []
  rhsBatch := []
  wf := dot_S32x25_S25x3_S32x3_1_0_0_1_n_n_wf
def dot_S32x3_S3x256_S32x256_1_0_0_1_n_n : DotDims S32x3 S3x256 S32x256 where
  lhsContracting := [1]
  rhsContracting := [0]
  lhsNonContracting := [0]
  rhsNonContracting := [1]
  lhsBatch := []
  rhsBatch := []
  wf := dot_S32x3_S3x256_S32x256_1_0_0_1_n_n_wf

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2x256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S_ : Shape := ⟨0, ![]⟩
abbrev S32x256 : Shape := ⟨2, ![32, 256]⟩
abbrev S256x25 : Shape := ⟨2, ![256, 25]⟩
abbrev S32x25 : Shape := ⟨2, ![32, 25]⟩
abbrev S25x3 : Shape := ⟨2, ![25, 3]⟩
abbrev S32x3 : Shape := ⟨2, ![32, 3]⟩
abbrev S32 : Shape := ⟨1, ![32]⟩
abbrev S32x1 : Shape := ⟨2, ![32, 1]⟩
abbrev S256 : Shape := ⟨1, ![256]⟩
abbrev S1x256x1x1 : Shape := ⟨4, ![1, 256, 1, 1]⟩
abbrev S32x256x1x1 : Shape := ⟨4, ![32, 256, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S25x256, .f32⟩
  | .hbm, ⟨2, _⟩ => ⟨S3x25, .f32⟩
  | .hbm, ⟨3, _⟩ => ⟨S3x256, .f32⟩
  | .hbm, ⟨4, _⟩ => ⟨S3x256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S256x25, .f32⟩
  | .hbm, ⟨11, _⟩ => ⟨S32x25, .f32⟩
  | .hbm, ⟨12, _⟩ => ⟨S_, .f32⟩
  | .hbm, ⟨13, _⟩ => ⟨S32x25, .f32⟩
  | .hbm, ⟨14, _⟩ => ⟨S32x25, .i1⟩
  | .hbm, ⟨15, _⟩ => ⟨S_, .f32⟩
  | .hbm, ⟨16, _⟩ => ⟨S32x25, .f32⟩
  | .hbm, ⟨17, _⟩ => ⟨S32x25, .f32⟩
  | .hbm, ⟨18, _⟩ => ⟨S32x25, .f32⟩
  | .hbm, ⟨19, _⟩ => ⟨S25x3, .f32⟩
  | .hbm, ⟨20, _⟩ => ⟨S32x3, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32x1, .f32⟩
  | .hbm, ⟨30, _⟩ => ⟨S32x3, .f32⟩
  | .hbm, ⟨31, _⟩ => ⟨S32x3, .f32⟩
  | .hbm, ⟨32, _⟩ => ⟨S32x3, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S32x3, .f32⟩
  | .hbm, ⟨37, _⟩ => ⟨S32x3, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .i32⟩
  | .hbm, ⟨44, _⟩ => ⟨S_, .f32⟩
  | .hbm, ⟨45, _⟩ => ⟨S256, .f32⟩
  | .hbm, ⟨46, _⟩ => ⟨S1x256x1x1, .f32⟩
  | .hbm, ⟨47, _⟩ => ⟨S_, .f32⟩
  | .hbm, ⟨48, _⟩ => ⟨S1x256x1x1, .f32⟩
  | .hbm, ⟨49, _⟩ => ⟨S1x256x1x1, .f32⟩
  | .hbm, ⟨50, _⟩ => ⟨S32x256x56x56, .f32⟩
  | .hbm, ⟨51, _⟩ => ⟨S32x256x56x56, .f32⟩
  | .hbm, ⟨52, _⟩ => ⟨S32x256x56x56, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256x1x1, .f32⟩
  | .hbm, ⟨67, _⟩ => ⟨S32x256x56x56, .f32⟩
  | .hbm, ⟨68, _⟩ => ⟨S32x256x56x56, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256x1x1, .f32⟩
  | .hbm, ⟨74, _⟩ => ⟨S32x256x56x56, .f32⟩
  | .hbm, ⟨75, _⟩ => ⟨S32x256x56x56, .f32⟩
  | .hbm, ⟨76, _⟩ => ⟨S32x256, .f32⟩
  | .hbm, ⟨77, _⟩ => ⟨S32x256, .f32⟩
  | .hbm, ⟨78, _⟩ => ⟨S32x256x1x1, .f32⟩
  | .hbm, ⟨79, _⟩ => ⟨S32x256x56x56, .f32⟩
  | .hbm, ⟨80, _⟩ => ⟨S32x256x56x56, .f32⟩
  | .hbm, ⟨81, _⟩ => ⟨S32x256x1x1, .f32⟩
  | .hbm, ⟨82, _⟩ => ⟨S32x256x56x56, .f32⟩
  | .hbm, ⟨83, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_9 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  reducesTo_S32x256x56x56_S32x256_d2_3 : S32x256x56x56.ReducesTo [2, 3] S32x256
  h_S_ : 0 < S_.numel
  bcast_S_S32x256 : S_.BroadcastsInDim S32x256 (![] : Fin 0 → Fin S32x256.rank)
  transposes_S25x256_S256x25_1_0 : S25x256.Transposes [1, 0] S256x25
  bcast_S_S32x25 : S_.BroadcastsInDim S32x25 (![] : Fin 0 → Fin S32x25.rank)
  transposes_S3x25_S25x3_1_0 : S3x25.Transposes [1, 0] S25x3
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x3_0_1 : S32x1.BroadcastsInDim S32x3 (![0, 1] : Fin 2 → Fin S32x3.rank)
  reducesTo_S32x256x56x56_S256_d0_2_3 : S32x256x56x56.ReducesTo [0, 2, 3] S256
  bcast_S_S256 : S_.BroadcastsInDim S256 (![] : Fin 0 → Fin S256.rank)
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S32x256x56x56_0_1_2_3 : S1x256x1x1.BroadcastsInDim S32x256x56x56 (![0, 1, 2, 3] : Fin 4 → Fin S32x256x56x56.rank)
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  dot_S32x256_S256x25_S32x25_1_0_0_1_n_n_wf : DotDims.WF S32x256 S256x25 S32x25 [1] [0] [0] [1] [] []
  dot_S32x25_S25x3_S32x3_1_0_0_1_n_n_wf : DotDims.WF S32x25 S25x3 S32x3 [1] [0] [0] [1] [] []
  dot_S32x3_S3x256_S32x256_1_0_0_1_n_n_wf : DotDims.WF S32x3 S3x256 S32x256 [1] [0] [0] [1] [] []

variable [Facts₀]

def dot_S32x256_S256x25_S32x25_1_0_0_1_n_n : DotDims S32x256 S256x25 S32x25 where
  lhsContracting := [1]
  rhsContracting := [0]
  lhsNonContracting := [0]
  rhsNonContracting := [1]
  lhsBatch := []
  rhsBatch := []
  wf := dot_S32x256_S256x25_S32x25_1_0_0_1_n_n_wf
def dot_S32x25_S25x3_S32x3_1_0_0_1_n_n : DotDims S32x25 S25x3 S32x3 where
  lhsContracting := [1]
  rhsContracting := [0]
  lhsNonContracting := [0]
  rhsNonContracting := [1]
  lhsBatch := []
  rhsBatch := []
  wf := dot_S32x25_S25x3_S32x3_1_0_0_1_n_n_wf
def dot_S32x3_S3x256_S32x256_1_0_0_1_n_n : DotDims S32x3 S3x256 S32x256 where
  lhsContracting := [1]
  rhsContracting := [0]
  lhsNonContracting := [0]
  rhsNonContracting := [1]
  lhsBatch := []
  rhsBatch := []
  wf := dot_S32x3_S3x256_S32x256_1_0_0_1_n_n_wf

class Facts : Prop extends Facts₀ where

variable [Facts]
-- ==== Proof.Terms.lean ====
/-
  The host-side stages of the two programs, named.

  The kernel's program sums the input over its two trailing axes (and its square likewise) in a first grid, then on
  the host takes a per-sample pooled mean, a per-channel batch mean and variance, a small gating head (two dense layers with a
  leaky rectifier between them, a softmax over three branches at temperature 30), and folds the normalisation and
  the gated mix of the three affine branches into one multiplier and one offset per (sample, channel); a second grid
  applies them.  The reference computes the same quantities directly: the pooled mean and the batch moments by host
  sums over the four-axis input, the variance as the mean of the squared deviations, and the output as the normalised
  input times the gated scale plus the gated bias.

  Everything here is a composition of the operations exactly as the two programs print them; nothing is proved.
-/
import proofs.«142900_j24163486007874_2_alg».proof.KernelIdeal
import proofs.«142900_j24163486007874_2_alg».proof.ReferenceIdeal
import Idealize.ShloMosaic.Lib.ValueIdx

noncomputable section

open Idealize.ShloMosaic Idealize.ShloMosaic.ValueIdx

/-! ## The stages shared by the two programs, in the kernel program's spelling -/

namespace Cert.KernelIdeal.Stage

open Cert.KernelIdeal Cert.KernelIdeal.Facts₀ Cert.KernelIdeal.Facts

variable {F : FTy → Type} [FloatOps F] [Cert.KernelIdeal.Facts]

/-- The per-(sample, channel) sums divided by the 56·56 = 3136 positions. -/
def pooled (S : FVec F S32x256 .f32) : FVec F S32x256 .f32 :=
  Host.divf S (broadcastInDim S32x256 ![] bcast_S_S32x256 (constant S_ .f32 0x45440000#32))

/-- The first dense layer: pooled [32, 256] times the transposed [25, 256] weights. -/
def hidden (p : FVec F S32x256 .f32) (fc1 : FVec F S25x256 .f32) : FVec F S32x25 .f32 :=
  Host.dotGeneral dot_S32x256_S256x25_S32x25_1_0_0_1_n_n none p (transpose S256x25 [1, 0] fc1 transposes_S25x256_S256x25_1_0)

/-- The leaky rectifier: h where h > 0, else 0.01 · h. -/
def leaky (h : FVec F S32x25 .f32) : FVec F S32x25 .f32 :=
  select (cmpf .ogt h (broadcastInDim S32x25 ![] bcast_S_S32x25 (constant S_ .f32 0x00000000#32))) h
    (mulf (broadcastInDim S32x25 ![] bcast_S_S32x25 (constant S_ .f32 0x3C23D70A#32)) h)

/-- The second dense layer, divided by the temperature 30. -/
def logits (a : FVec F S32x25 .f32) (fc2 : FVec F S3x25 .f32) : FVec F S32x3 .f32 :=
  Host.divf (Host.dotGeneral dot_S32x25_S25x3_S32x3_1_0_0_1_n_n none a (transpose S25x3 [1, 0] fc2 transposes_S3x25_S25x3_1_0))
    (broadcastInDim S32x3 ![] bcast_S_S32x3 (constant S_ .f32 0x41F00000#32))

/-- A row's maximum over its three entries, started at -∞ and once more capped below by -∞. -/
def rowMax (z : FVec F S32x3 .f32) : FVec F S32 .f32 :=
  maximumf (broadcastInDim S32 ![] bcast_S_S32 (constant S_ .f32 0xFF800000#32))
    (Host.reduce FloatOps.maximumf z (constant S_ .f32 0xFF800000#32) reducesTo_S32x3_S32_d1 h_S_)

/-- A per-row number repeated along the row's three entries. -/
def spread3 (v : FVec F S32 .f32) : FVec F S32x3 .f32 :=
  broadcastInDim S32x3 ![0, 1] bcast_S32x1_S32x3_0_1 (broadcastInDim S32x1 ![0] bcast_S32_S32x1_0 v)

/-- exp (z - the row's maximum). -/
def expShift (z : FVec F S32x3 .f32) : FVec F S32x3 .f32 := Host.exp (subf z (spread3 (rowMax z)))

/-- The row's sum of a [32, 3] array. -/
def rowSum3 (e : FVec F S32x3 .f32) : FVec F S32 .f32 :=
  Host.reduceAdd e (constant S_ .f32 0x00000000#32) reducesTo_S32x3_S32_d1 h_S_

/-- The softmax along the three branches. -/
def softmax (z : FVec F S32x3 .f32) : FVec F S32x3 .f32 :=
  Host.divf (expShift z) (spread3 (rowSum3 (expShift z)))

/-- The gates: softmax of the gating head applied to the pooled means of the sums S. -/
def gates (S : FVec F S32x256 .f32) (fc1 : FVec F S25x256 .f32) (fc2 : FVec F S3x25 .f32) : FVec F S32x3 .f32 :=
  softmax (logits (leaky (hidden (pooled S) fc1)) fc2)

/-- The gated mix of the three branches' per-channel parameters: gates [32, 3] times p [3, 256]. -/
def mix (g : FVec F S32x3 .f32) (p : FVec F S3x256 .f32) : FVec F S32x256 .f32 :=
  Host.dotGeneral dot_S32x3_S3x256_S32x256_1_0_0_1_n_n none g p

/-- The inverse standard deviation: rsqrt (variance + 1e-5). -/
def invStd (v : FVec F S256 .f32) : FVec F S256 .f32 :=
  Host.rsqrt (addf v (broadcastInDim S256 ![] bcast_S_S256 (constant S_ .f32 0x3727C5AC#32)))

/-! ### The kernel program's own batch moments, from the per-(sample, channel) sums -/

/-- A [32, 256] array summed over the samples. -/
def colSum (S : FVec F S32x256 .f32) : FVec F S256 .f32 :=
  Host.reduceAdd S (constant S_ .f32 0x00000000#32) reducesTo_S32x256_S256_d0 h_S_

/-- Division by the 32·56·56 = 100352 elements of a channel. -/
def overN (v : FVec F S256 .f32) : FVec F S256 .f32 :=
  Host.divf v (broadcastInDim S256 ![] bcast_S_S256 (constant S_ .f32 0x47C40000#32))

/-- The batch mean per channel, from the sums S. -/
def mean (S : FVec F S32x256 .f32) : FVec F S256 .f32 := overN (colSum S)

/-- The batch variance per channel as mean of squares minus squared mean, from the sums S and the sums of squares Q. -/
def var (S Q : FVec F S32x256 .f32) : FVec F S256 .f32 := subf (overN (colSum Q)) (mulf (mean S) (mean S))

/-- A per-channel number repeated over the 32 samples. -/
def rows (v : FVec F S256 .f32) : FVec F S32x256 .f32 :=
  broadcastInDim S32x256 ![0, 1] bcast_S1x256_S32x256_0_1 (broadcastInDim S1x256 ![1] bcast_S256_S1x256_1 v)

/-- The multiplier per (sample, channel): gated scale times inverse standard deviation. -/
def coefA (g : FVec F S32x3 .f32) (gamma : FVec F S3x256 .f32) (S Q : FVec F S32x256 .f32) : FVec F S32x256 .f32 :=
  mulf (mix g gamma) (rows (invStd (var S Q)))

/-- The offset per (sample, channel): gated bias minus mean times the multiplier. -/
def coefB (g : FVec F S32x3 .f32) (gamma beta : FVec F S3x256 .f32) (S Q : FVec F S32x256 .f32) : FVec F S32x256 .f32 :=
  subf (mix g beta) (mulf (rows (mean S)) (coefA g gamma S Q))

end Cert.KernelIdeal.Stage

/-! ## What the kernel program computes, as functions of the five argument arrays (exact instance) -/

namespace Cert.KernelIdeal.Stage

open Cert.KernelIdeal

variable [Cert.KernelIdeal.Facts]

/-- The sum of the input over its two trailing axes, per (sample, channel). -/
def sums (x : FVec Ideal S32x256x56x56 .f32) : FVec Ideal S32x256 .f32 :=
  fun i => ∑ h : Fin 56, ∑ w : Fin 56, x (ix4 (i 0) (i 1) h w)

/-- The sum of the squared input over its two trailing axes, per (sample, channel). -/
def sumsSq (x : FVec Ideal S32x256x56x56 .f32) : FVec Ideal S32x256 .f32 :=
  fun i => ∑ h : Fin 56, ∑ w : Fin 56, x (ix4 (i 0) (i 1) h w) * x (ix4 (i 0) (i 1) h w)

/-- The kernel program's second result. -/
def kerGates (x : FVec Ideal S32x256x56x56 .f32) (fc1 : FVec Ideal S25x256 .f32) (fc2 : FVec Ideal S3x25 .f32) : FVec Ideal S32x3 .f32 :=
  gates (sums x) fc1 fc2

/-- The kernel program's first result: the input times the multiplier plus the offset of its (sample, channel). -/
def kerOut (x : FVec Ideal S32x256x56x56 .f32) (fc1 : FVec Ideal S25x256 .f32) (fc2 : FVec Ideal S3x25 .f32)
    (gamma beta : FVec Ideal S3x256 .f32) : FVec Ideal S32x256x56x56 .f32 :=
  fun i => x i * coefA (kerGates x fc1 fc2) gamma (sums x) (sumsSq x) (ix2 (i 0) (i 1))
    + coefB (kerGates x fc1 fc2) gamma beta (sums x) (sumsSq x) (ix2 (i 0) (i 1))

end Cert.KernelIdeal.Stage

/-! ## The reference's own stages -/

namespace Cert.ReferenceIdeal.Stage

open Cert.ReferenceIdeal Cert.ReferenceIdeal.Facts₀ Cert.ReferenceIdeal.Facts

variable {F : FTy → Type} [FloatOps F] [Cert.ReferenceIdeal.Facts]

/-- The input summed over its two trailing axes by the host. -/
def sums (x : FVec F S32x256x56x56 .f32) : FVec F S32x256 .f32 :=
  Host.reduceAdd x (constant S_ .f32 0x00000000#32) reducesTo_S32x256x56x56_S32x256_d2_3 h_S_

/-- A four-axis array summed over all axes but the channel's. -/
def chanSum (x : FVec F S32x256x56x56 .f32) : FVec F S256 .f32 :=
  Host.reduceAdd x (constant S_ .f32 0x00000000#32) reducesTo_S32x256x56x56_S256_d0_2_3 h_S_

/-- The batch mean per channel. -/
def mean (x : FVec F S32x256x56x56 .f32) : FVec F S256 .f32 :=
  Host.divf (chanSum x) (broadcastInDim S256 ![] bcast_S_S256 (constant S_ .f32 0x47C40000#32))

/-- A per-channel number repeated over samples and positions. -/
def full (v : FVec F S256 .f32) : FVec F S32x256x56x56 .f32 :=
  broadcastInDim S32x256x56x56 ![0, 1, 2, 3] bcast_S1x256x1x1_S32x256x56x56_0_1_2_3
    (broadcastInDim S1x256x1x1 ![1] bcast_S256_S1x256x1x1_1 v)

/-- A per-(sample, channel) number repeated over the positions. -/
def full2 (A : FVec F S32x256 .f32) : FVec F S32x256x56x56 .f32 :=
  broadcastInDim S32x256x56x56 ![0, 1, 2, 3] bcast_S32x256x1x1_S32x256x56x56_0_1_2_3
    (broadcastInDim S32x256x1x1 ![0, 1] bcast_S32x256_S32x256x1x1_0_1 A)

/-- The deviation from the mean that the variance routine takes (it divides the broadcast sum, not the sum). -/
def devVar (x : FVec F S32x256x56x56 .f32) : FVec F S32x256x56x56 .f32 :=
  subf x (broadcastInDim S32x256x56x56 ![0, 1, 2, 3] bcast_S1x256x1x1_S32x256x56x56_0_1_2_3
    (Host.divf (broadcastInDim S1x256x1x1 ![1] bcast_S256_S1x256x1x1_1 (chanSum x))
      (broadcastInDim S1x256x1x1 ![] bcast_S_S1x256x1x1 (constant S_ .f32 0x47C40000#32))))

/-- The variance routine's divisor: 100352 minus the (zero) degrees of freedom. -/
def count : FVec F S_ .f32 := subf (constant S_ .f32 0x47C40000#32) (sitofp .f32 (constantI S_ 32 0#32))

/-- The batch variance per channel as the variance routine computes it: the mean squared deviation where the divisor is
    positive, a not-a-number pattern otherwise. -/
def var (x : FVec F S32x256x56x56 .f32) : FVec F S256 .f32 :=
  select (broadcastInDim S256 ![] bcast_S_S256 (cmpf .ogt (count (F := F)) (constant S_ .f32 0x00000000#32)))
    (Host.divf (chanSum (mulf (devVar x) (devVar x))) (broadcastInDim S256 ![] bcast_S_S256 (count (F := F))))
    (broadcastInDim S256 ![] bcast_S_S256 (id (constant S_ .f32 0x7FC00000#32)))

end Cert.ReferenceIdeal.Stage

namespace Cert.ReferenceIdeal.Stage

open Cert.ReferenceIdeal Cert.KernelIdeal.Stage

variable [Cert.KernelIdeal.Facts] [Cert.ReferenceIdeal.Facts]

/-- The reference's second result. -/
def refGates (x : FVec Ideal S32x256x56x56 .f32) (fc1 : FVec Ideal S25x256 .f32) (fc2 : FVec Ideal S3x25 .f32) : FVec Ideal S32x3 .f32 :=
  gates (sums x) fc1 fc2

/-- The reference's first result: the normalised input times the gated scale plus the gated bias. -/
def refOut (x : FVec Ideal S32x256x56x56 .f32) (fc1 : FVec Ideal S25x256 .f32) (fc2 : FVec Ideal S3x25 .f32)
    (gamma beta : FVec Ideal S3x256 .f32) : FVec Ideal S32x256x56x56 .f32 :=
  addf (mulf (mulf (subf x (full (mean x))) (full (invStd (var x)))) (full2 (mix (refGates x fc1 fc2) gamma)))
    (full2 (mix (refGates x fc1 fc2) beta))

end Cert.ReferenceIdeal.Stage

end
-- ==== Proof.RegionsStats.lean ====
/-
  The first grid's two output arrays as functions of the input array, for any contents V of the buffers at the grid's entry.

  Each of the 16 points loads the block of two samples [2, 256, 56, 56] at block index (t, 0, 0, 0) of the input, sums it
  (and its square) over the last axis, then over the next, and stores the [2, 256] result as a [2, 256, 1] block at block
  index (t, 0, 0) of each output.  Read at an index the two payloads are double sums over the 56 x 56 positions.  A block's
  coordinate in its array is the block index times the block's size plus the coordinate inside the block; the blocks tile
  the arrays (sample b lies in the block of point b / 2) and every point writes back, so each output array ends as one
  function of the input array: the sum, and the sum of squares, over the positions.
-/
import proofs.«142900_j24163486007874_2_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Region

open Idealize.ShloMosaic Idealize.ShloMosaic.TcCoe Idealize.ShloMosaic.ValueIdx Idealize.SL.Sem
open Cert.KernelIdeal Cert.KernelIdeal.Gen

/-! ## The two payloads of the first grid, read at an index -/

/-- The sum over the last axis of a [2, 256, 56, 56] block, read at (p, q, r). -/
theorem laneSum_at (src : FVec Ideal S2x256x56x56 .f32) (h : S2x256x56x56.Reduces [3] S2x256x56) (hφ : FKind.Formats .f32)
    (hacc : (0x00000000#32 : BitVec 32) = FKind.add.neutral .f32 hφ) (p : Fin 2) (q : Fin 256) (r : Fin 56) :
    multiReduction .add [3] S2x256x56 src 0x00000000#32 h hφ hacc (ix3 p q r) = ∑ w : Fin 56, src (ix4 p q r w) := by
  refine (Ideal.multiReduction_add_single src 0x00000000#32 h hφ hacc (ix3 p q r)).trans ?_
  refine Finset.sum_congr rfl fun w _ => congrArg src (funext fun a => ?_)
  match a with
  | ⟨0, _⟩ => rfl
  | ⟨1, _⟩ => rfl
  | ⟨2, _⟩ => rfl
  | ⟨3, _⟩ => rfl

/-- The sum over the last axis of a [2, 256, 56] array, read at (p, q). -/
theorem rowSum_at (src : FVec Ideal S2x256x56 .f32) (h : S2x256x56.Reduces [2] S2x256) (hφ : FKind.Formats .f32)
    (hacc : (0x00000000#32 : BitVec 32) = FKind.add.neutral .f32 hφ) (p : Fin 2) (q : Fin 256) :
    multiReduction .add [2] S2x256 src 0x00000000#32 h hφ hacc (ix2 p q) = ∑ r : Fin 56, src (ix3 p q r) := by
  refine (Ideal.multiReduction_add_single src 0x00000000#32 h hφ hacc (ix2 p q)).trans ?_
  refine Finset.sum_congr rfl fun r _ => congrArg src (funext fun a => ?_)
  match a with
  | ⟨0, _⟩ => rfl
  | ⟨1, _⟩ => rfl
  | ⟨2, _⟩ => rfl

/-- The first payload at (p, q, 0): the block summed over its two trailing axes. -/
theorem pay1_at (v0 : Vec Ideal S2x256x56x56 .f32) (p : Fin 2) (q : Fin 256) :
    k0_pay1 v0 (ix3 p q (0 : Fin 1)) = ∑ h : Fin 56, ∑ w : Fin 56, v0 (ix4 p q h w) := by
  unfold k0_pay1
  refine (shapeCast_apply _ _ (ix3 p q (0 : Fin 1)) (ix2 p q) (by
    rw [Shape.rowMajor_val_two, Shape.rowMajor_val_three]
    show p.val * 256 + q.val = (p.val * 256 + q.val) * 1 + 0
    omega)).trans ?_
  refine (rowSum_at _ _ _ _ p q).trans ?_
  refine Finset.sum_congr rfl fun r _ => ?_
  exact laneSum_at _ _ _ _ p q r

/-- The second payload at (p, q, 0): the squared block summed over its two trailing axes. -/
theorem pay2_at (v0 : Vec Ideal S2x256x56x56 .f32) (p : Fin 2) (q : Fin 256) :
    k0_pay2 v0 (ix3 p q (0 : Fin 1)) = ∑ h : Fin 56, ∑ w : Fin 56, v0 (ix4 p q h w) * v0 (ix4 p q h w) := by
  unfold k0_pay2
  refine (shapeCast_apply _ _ (ix3 p q (0 : Fin 1)) (ix2 p q) (by
    rw [Shape.rowMajor_val_two, Shape.rowMajor_val_three]
    show p.val * 256 + q.val = (p.val * 256 + q.val) * 1 + 0
    omega)).trans ?_
  refine (rowSum_at _ _ _ _ p q).trans ?_
  refine Finset.sum_congr rfl fun r _ => ?_
  refine (laneSum_at _ _ _ _ p q r).trans ?_
  rfl

/-! ## The two output arrays as functions of the input array -/

/-- The input summed over its 56 x 56 positions, as a [32, 256, 1] array. -/
def sumArr (X : S32x256x56x56.Idx → EReal) : S32x256x1.Idx → EReal :=
  fun i => ∑ h : Fin 56, ∑ w : Fin 56, X (ix4 (n0 := 32) (n1 := 256) (i 0) (i 1) h w)

/-- The squared input summed over its 56 x 56 positions, as a [32, 256, 1] array. -/
def sumSqArr (X : S32x256x56x56.Idx → EReal) : S32x256x1.Idx → EReal :=
  fun i => ∑ h : Fin 56, ∑ w : Fin 56,
    X (ix4 (n0 := 32) (n1 := 256) (i 0) (i 1) h w) * X (ix4 (n0 := 32) (n1 := 256) (i 0) (i 1) h w)

/-- A block of two samples that is rows 2T, 2T + 1 of the array: its first payload is that block of `sumArr`. -/
theorem pay1_block (X : S32x256x56x56.Idx → EReal) (x0 : Vec Ideal S2x256x56x56 .f32) (T : Nat)
    (hx0 : ∀ (u : S2x256x56x56.Idx) (k : S32x256x56x56.Idx), (k 0).val = T * 2 + (u 0).val → (k 1).val = (u 1).val →
      (k 2).val = (u 2).val → (k 3).val = (u 3).val → x0 u = X k)
    (y : S2x256x1.Idx) (i : S32x256x1.Idx) (hi0 : (i 0).val = T * 2 + (y 0).val) (hi1 : (i 1).val = (y 1).val) :
    k0_pay1 x0 y = sumArr X i := by
  obtain ⟨p, q, r, rfl⟩ : ∃ (p : Fin 2) (q : Fin 256) (r : Fin 1), y = ix3 p q r := ⟨y 0, y 1, y 2, eq_ix3 y⟩
  obtain rfl : r = 0 := Subsingleton.elim _ _
  obtain ⟨b, ch, z, rfl⟩ : ∃ (b : Fin 32) (ch : Fin 256) (z : Fin 1), i = ix3 b ch z := ⟨i 0, i 1, i 2, eq_ix3 i⟩
  refine (pay1_at x0 p q).trans ?_
  show _ = ∑ h : Fin 56, ∑ w : Fin 56, X (ix4 b ch h w)
  refine Finset.sum_congr rfl fun h _ => Finset.sum_congr rfl fun w _ => ?_
  exact hx0 (ix4 p q h w) (ix4 b ch h w) hi0 hi1 rfl rfl

/-- Likewise its second payload is that block of `sumSqArr`. -/
theorem pay2_block (X : S32x256x56x56.Idx → EReal) (x0 : Vec Ideal S2x256x56x56 .f32) (T : Nat)
    (hx0 : ∀ (u : S2x256x56x56.Idx) (k : S32x256x56x56.Idx), (k 0).val = T * 2 + (u 0).val → (k 1).val = (u 1).val →
      (k 2).val = (u 2).val → (k 3).val = (u 3).val → x0 u = X k)
    (y : S2x256x1.Idx) (i : S32x256x1.Idx) (hi0 : (i 0).val = T * 2 + (y 0).val) (hi1 : (i 1).val = (y 1).val) :
    k0_pay2 x0 y = sumSqArr X i := by
  obtain ⟨p, q, r, rfl⟩ : ∃ (p : Fin 2) (q : Fin 256) (r : Fin 1), y = ix3 p q r := ⟨y 0, y 1, y 2, eq_ix3 y⟩
  obtain rfl : r = 0 := Subsingleton.elim _ _
  obtain ⟨b, ch, z, rfl⟩ : ∃ (b : Fin 32) (ch : Fin 256) (z : Fin 1), i = ix3 b ch z := ⟨i 0, i 1, i 2, eq_ix3 i⟩
  refine (pay2_at x0 p q).trans ?_
  show _ = ∑ h : Fin 56, ∑ w : Fin 56, X (ix4 b ch h w) * X (ix4 b ch h w)
  refine Finset.sum_congr rfl fun h _ => Finset.sum_congr rfl fun w _ => ?_
  rw [hx0 (ix4 p q h w) (ix4 b ch h w) hi0 hi1 rfl rfl]

/-! ## From the blocks to the arrays -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps of the first grid, decided over its 16 points: every window's block index is the point on the
    sample axis and zero on the others. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

variable (V : (c : Dev nD) → (b : Ref sig .tc) → Buf (Elt Ideal) ((c : Thread nD τ).loc b))

/-- The input window's block at point t is samples 2t, 2t + 1 of the input array. -/
theorem iblk0_0_apply (c : Dev nD) (t : Fin cfg0.N) (u : S2x256x56x56.Idx) (k : S32x256x56x56.Idx)
    (h0 : (k 0).val = t.val * 2 + (u 0).val) (h1 : (k 1).val = (u 1).val) (h2 : (k 2).val = (u 2).val) (h3 : (k 3).val = (u 3).val) :
    (iblk0 V c 0 t : Vec Ideal S2x256x56x56 .f32) u = (V c main_arg0 : S32x256x56x56.Idx → EReal) k := by
  obtain ⟨e0, e1, e2, e3, -⟩ := idx_facts0 t
  unfold iblk0
  rw [View.read_apply]
  show V c main_arg0 _ = V c main_arg0 _
  congr 1
  funext a
  apply Fin.ext
  match a with
  | ⟨0, _⟩ => show win0_0.index t (0 : Fin 4) * 2 + 1 * (u 0).val = (k 0).val; rw [e0, h0]; omega
  | ⟨1, _⟩ => show win0_0.index t (1 : Fin 4) * 256 + 1 * (u 1).val = (k 1).val; rw [e1, h1]; omega
  | ⟨2, _⟩ => show win0_0.index t (2 : Fin 4) * 56 + 1 * (u 2).val = (k 2).val; rw [e2, h2]; omega
  | ⟨3, _⟩ => show win0_0.index t (3 : Fin 4) * 56 + 1 * (u 3).val = (k 3).val; rw [e3, h3]; omega

/-- What point t writes back to the first output is block t of `sumArr` of the input array. -/
theorem flushed_sums (c : Dev nD) (t : Fin cfg0.N) :
    (dat0 V c).flushed 1 t = ((cfg0.win 1).blk t).view.read (Elt Ideal) (sumArr (V c main_arg0)) := by
  show (cfg0.win 1).cut (grid0.coords t) ((dat0 V c).after 1 t) = _
  rw [after0_1]
  unfold out0_1
  rw [View.canon_unit_zero hz3]
  simp only [View.ld_unit_zero (S := S2x256x56x56) hz4]
  obtain ⟨-, -, -, -, e0, e1, -⟩ := idx_facts0 t
  funext j
  refine pay1_block (V c main_arg0) (iblk0 V c 0 t) t.val (fun u k h0 h1 h2 h3 => iblk0_0_apply V c t u k h0 h1 h2 h3)
    j (((cfg0.win 1).blk t).view.emb j) ?_ ?_
  · show win0_1.index t (0 : Fin 3) * 2 + 1 * (j 0).val = t.val * 2 + (j 0).val
    rw [e0]; omega
  · show win0_1.index t (1 : Fin 3) * 256 + 1 * (j 1).val = (j 1).val
    rw [e1]; omega

/-- What point t writes back to the second output is block t of `sumSqArr` of the input array. -/
theorem flushed_sumsSq (c : Dev nD) (t : Fin cfg0.N) :
    (dat0 V c).flushed 2 t = ((cfg0.win 2).blk t).view.read (Elt Ideal) (sumSqArr (V c main_arg0)) := by
  show (cfg0.win 2).cut (grid0.coords t) ((dat0 V c).after 2 t) = _
  rw [after0_2]
  unfold out0_2
  rw [View.canon_unit_zero hz3]
  simp only [View.ld_unit_zero (S := S2x256x56x56) hz4]
  obtain ⟨-, -, -, -, -, -, -, e0, e1, -⟩ := idx_facts0 t
  funext j
  refine pay2_block (V c main_arg0) (iblk0 V c 0 t) t.val (fun u k h0 h1 h2 h3 => iblk0_0_apply V c t u k h0 h1 h2 h3)
    j (((cfg0.win 2).blk t).view.emb j) ?_ ?_
  · show win0_2.index t (0 : Fin 3) * 2 + 1 * (j 0).val = t.val * 2 + (j 0).val
    rw [e0]; omega
  · show win0_2.index t (1 : Fin 3) * 256 + 1 * (j 1).val = (j 1).val
    rw [e1]; omega

/-- An index of the first output array is in point t's block iff each coordinate is in the block's range on its axis. -/
theorem mem_blk_sums (t : Fin cfg0.N) (i : S32x256x1.Idx) :
    i ∈ ((cfg0.win 1).blk t).view.set ↔ ∀ a : Fin 3, win0_1.index t a * S2x256x1.size a ≤ (i a).val ∧ (i a).val < win0_1.index t a * S2x256x1.size a + S2x256x1.size a := by
  show i ∈ ((View.whole main_v0_0).slice (win0_1.rect t)).set ↔ _
  rw [View.set_slice_whole, Rect.mem_set_unit]
  exact Iff.rfl

/-- The same for the second output array. -/
theorem mem_blk_sumsSq (t : Fin cfg0.N) (i : S32x256x1.Idx) :
    i ∈ ((cfg0.win 2).blk t).view.set ↔ ∀ a : Fin 3, win0_2.index t a * S2x256x1.size a ≤ (i a).val ∧ (i a).val < win0_2.index t a * S2x256x1.size a + S2x256x1.size a := by
  show i ∈ ((View.whole main_v0_1).slice (win0_2.rect t)).set ↔ _
  rw [View.set_slice_whole, Rect.mem_set_unit]
  exact Iff.rfl

/-- Sample b of the first output array is in the block of point b / 2, which writes back. -/
theorem cover_sums (i : S32x256x1.Idx) : ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 1 := (i 2).isLt
  have hN : cfg0.N = 16 := N_0
  let t : Fin cfg0.N := ⟨(i 0).val / 2, by rw [hN]; omega⟩
  obtain ⟨-, -, -, -, e0, e1, e2, -⟩ := idx_facts0 t
  have ht : t.val = (i 0).val / 2 := rfl
  refine ⟨t, flush0_1 t, ?_⟩
  rw [mem_blk_sums]
  intro a
  match a with
  | ⟨0, _⟩ => show win0_1.index t (0 : Fin 3) * 2 ≤ (i 0).val ∧ (i 0).val < win0_1.index t (0 : Fin 3) * 2 + 2; rw [e0, ht]; omega
  | ⟨1, _⟩ => show win0_1.index t (1 : Fin 3) * 256 ≤ (i 1).val ∧ (i 1).val < win0_1.index t (1 : Fin 3) * 256 + 256; rw [e1]; omega
  | ⟨2, _⟩ => show win0_1.index t (2 : Fin 3) * 1 ≤ (i 2).val ∧ (i 2).val < win0_1.index t (2 : Fin 3) * 1 + 1; rw [e2]; omega

/-- The same for the second output array. -/
theorem cover_sumsSq (i : S32x256x1.Idx) : ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  have hN : cfg0.N = 16 := N_0
  let t : Fin cfg0.N := ⟨(i 0).val / 2, by rw [hN]; omega⟩
  obtain ⟨-, -, -, -, -, -, -, e0, e1, e2⟩ := idx_facts0 t
  have ht : t.val = (i 0).val / 2 := rfl
  refine ⟨t, flush0_2 t, ?_⟩
  rw [mem_blk_sumsSq]
  intro a
  match a with
  | ⟨0, _⟩ => show win0_2.index t (0 : Fin 3) * 2 ≤ (i 0).val ∧ (i 0).val < win0_2.index t (0 : Fin 3) * 2 + 2; rw [e0, ht]; omega
  | ⟨1, _⟩ => show win0_2.index t (1 : Fin 3) * 256 ≤ (i 1).val ∧ (i 1).val < win0_2.index t (1 : Fin 3) * 256 + 256; rw [e1]; omega
  | ⟨2, _⟩ => show win0_2.index t (2 : Fin 3) * 1 ≤ (i 2).val ∧ (i 2).val < win0_2.index t (2 : Fin 3) * 1 + 1; rw [e2]; omega

/-- After the first grid its first output array is `sumArr` of the input array. -/
theorem sums_final (c : Dev nD) : (dat0 V c).arrAt 1 cfg0.N = sumArr (V c main_arg0) :=
  (dat0 V c).arrAt_eq_of_cover 1 (sumArr (V c main_arg0)) (fun t _ => flushed_sums V c t) cover_sums

/-- After the first grid its second output array is `sumSqArr` of the input array. -/
theorem sumsSq_final (c : Dev nD) : (dat0 V c).arrAt 2 cfg0.N = sumSqArr (V c main_arg0) :=
  (dat0 V c).arrAt_eq_of_cover 2 (sumSqArr (V c main_arg0)) (fun t _ => flushed_sumsSq V c t) cover_sumsSq

end Cert.KernelIdeal.Region

end
-- ==== Proof.RegionsAffine.lean ====
/-
  The second grid's output array as a function of its three input arrays, for any contents V of the buffers at the grid's
  entry.

  Each of the 32 points loads the block of one sample [1, 256, 56, 56] at block index (t, 0, 0, 0) of the input and the
  blocks [1, 256, 1, 1] at (t, 0, 0, 0) of the multiplier and offset arrays, repeats the two columns over the 56 x 56
  positions, and stores input times multiplier plus offset as the block at (t, 0, 0, 0) of the output.  A block's coordinate
  in its array is the block index times the block's size plus the coordinate inside the block; the blocks tile the output
  (sample b is the block of point b) and every point writes back, so the output array ends as one function of the three
  arrays.
-/
import proofs.«142900_j24163486007874_2_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Region

open Idealize.ShloMosaic Idealize.ShloMosaic.TcCoe Idealize.ShloMosaic.ValueIdx Idealize.SL.Sem
open Cert.KernelIdeal Cert.KernelIdeal.Gen

/-! ## The payload of the second grid, read at an index -/

/-- A [1, 256, 1, 1] column repeated over the 56 x 56 positions, read at (p, q, h, w). -/
theorem spread_at (v : FVec Ideal S1x256x1x1 .f32) (hb : S1x256x1x1.Broadcasts S1x256x56x56) (p : Fin 1) (q : Fin 256) (h w : Fin 56) :
    broadcastTo S1x256x56x56 v hb (ix4 p q h w) = v (ix4 (0 : Fin 1) q (0 : Fin 1) (0 : Fin 1)) := by
  refine broadcastTo_apply v hb (ix4 p q h w) (ix4 (0 : Fin 1) q (0 : Fin 1) (0 : Fin 1)) fun a => ?_
  match a with
  | ⟨0, _⟩ => rfl
  | ⟨1, _⟩ => rfl
  | ⟨2, _⟩ => rfl
  | ⟨3, _⟩ => rfl

/-- The payload at (p, q, h, w): the input block there times the multiplier column plus the offset column at q. -/
theorem affinePay_at (v0 : Vec Ideal S1x256x56x56 .f32) (v1 v5 : Vec Ideal S1x256x1x1 .f32) (p : Fin 1) (q : Fin 256) (h w : Fin 56) :
    k1_pay1 v0 v1 v5 (ix4 p q h w)
      = v0 (ix4 p q h w) * v1 (ix4 (0 : Fin 1) q (0 : Fin 1) (0 : Fin 1)) + v5 (ix4 (0 : Fin 1) q (0 : Fin 1) (0 : Fin 1)) := by
  unfold k1_pay1
  show v0 (ix4 p q h w) * broadcastTo S1x256x56x56 (shapeCast S1x256x1x1 v1 _) _ (ix4 p q h w)
      + broadcastTo S1x256x56x56 (shapeCast S1x256x1x1 v5 _) _ (ix4 p q h w) = _
  refine congrArg₂ (· + ·) (congrArg (v0 (ix4 p q h w) * ·) ?_) ?_
  · refine (spread_at _ _ p q h w).trans ?_
    exact congrFun (shapeCast_self v1 _) _
  · refine (spread_at _ _ p q h w).trans ?_
    exact congrFun (shapeCast_self v5 _) _

/-! ## The output array as a function of the three input arrays -/

/-- The input times the multiplier of its (sample, channel) plus the offset of its (sample, channel). -/
def affArr (X : S32x256x56x56.Idx → EReal) (A B : S32x256x1x1.Idx → EReal) : S32x256x56x56.Idx → EReal :=
  fun i => X i * A (ix4 (n0 := 32) (n1 := 256) (i 0) (i 1) (0 : Fin 1) (0 : Fin 1))
    + B (ix4 (n0 := 32) (n1 := 256) (i 0) (i 1) (0 : Fin 1) (0 : Fin 1))

/-- Blocks that are sample T of the three arrays: the payload is that block of `affArr`. -/
theorem affine_block (X : S32x256x56x56.Idx → EReal) (A B : S32x256x1x1.Idx → EReal)
    (x0 : Vec Ideal S1x256x56x56 .f32) (a0 b0 : Vec Ideal S1x256x1x1 .f32) (T : Nat)
    (hx0 : ∀ (u : S1x256x56x56.Idx) (k : S32x256x56x56.Idx), (k 0).val = T * 1 + (u 0).val → (k 1).val = (u 1).val →
      (k 2).val = (u 2).val → (k 3).val = (u 3).val → x0 u = X k)
    (ha0 : ∀ (u : S1x256x1x1.Idx) (k : S32x256x1x1.Idx), (k 0).val = T * 1 + (u 0).val → (k 1).val = (u 1).val → a0 u = A k)
    (hb0 : ∀ (u : S1x256x1x1.Idx) (k : S32x256x1x1.Idx), (k 0).val = T * 1 + (u 0).val → (k 1).val = (u 1).val → b0 u = B k)
    (y : S1x256x56x56.Idx) (i : S32x256x56x56.Idx) (hi0 : (i 0).val = T * 1 + (y 0).val) (hi1 : (i 1).val = (y 1).val)
    (hi2 : (i 2).val = (y 2).val) (hi3 : (i 3).val = (y 3).val) :
    k1_pay1 x0 a0 b0 y = affArr X A B i := by
  obtain ⟨p, q, h, w, rfl⟩ : ∃ (p : Fin 1) (q : Fin 256) (h w : Fin 56), y = ix4 p q h w := ⟨y 0, y 1, y 2, y 3, eq_ix4 y⟩
  obtain ⟨b, ch, h', w', rfl⟩ : ∃ (b : Fin 32) (ch : Fin 256) (h' w' : Fin 56), i = ix4 b ch h' w' := ⟨i 0, i 1, i 2, i 3, eq_ix4 i⟩
  have hp : p.val = 0 := by have := p.isLt; omega
  refine (affinePay_at x0 a0 b0 p q h w).trans ?_
  show _ = X (ix4 b ch h' w') * A (ix4 b ch (0 : Fin 1) (0 : Fin 1)) + B (ix4 b ch (0 : Fin 1) (0 : Fin 1))
  rw [hx0 (ix4 p q h w) (ix4 b ch h' w') hi0 hi1 hi2 hi3,
    ha0 (ix4 (0 : Fin 1) q (0 : Fin 1) (0 : Fin 1)) (ix4 b ch (0 : Fin 1) (0 : Fin 1)) (by
      show b.val = T * 1 + 0
      have : b.val = T * 1 + p.val := hi0
      omega) hi1,
    hb0 (ix4 (0 : Fin 1) q (0 : Fin 1) (0 : Fin 1)) (ix4 b ch (0 : Fin 1) (0 : Fin 1)) (by
      show b.val = T * 1 + 0
      have : b.val = T * 1 + p.val := hi0
      omega) hi1]

/-! ## From the blocks to the array -/

theorem hz4' : (![0, 0, 0, 0] : Fin 4 → Nat) = fun _ => 0 := funext fun a => by fin_cases a <;> rfl

/-- The printed index maps of the second grid, decided over its 32 points: every window's block index is the point on the
    sample axis and zero on the others. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

variable (V : (c : Dev nD) → (b : Ref sig .tc) → Buf (Elt Ideal) ((c : Thread nD τ).loc b))

/-- The input window's block at point t is sample t of the input array. -/
theorem iblk1_0_apply (c : Dev nD) (t : Fin cfg1.N) (u : S1x256x56x56.Idx) (k : S32x256x56x56.Idx)
    (h0 : (k 0).val = t.val * 1 + (u 0).val) (h1 : (k 1).val = (u 1).val) (h2 : (k 2).val = (u 2).val) (h3 : (k 3).val = (u 3).val) :
    (iblk1 V c 0 t : Vec Ideal S1x256x56x56 .f32) u = (V c main_arg0 : S32x256x56x56.Idx → EReal) k := by
  obtain ⟨e0, e1, e2, e3, -⟩ := idx_facts1 t
  unfold iblk1
  rw [View.read_apply]
  show V c main_arg0 _ = V c main_arg0 _
  congr 1
  funext a
  apply Fin.ext
  match a with
  | ⟨0, _⟩ => show win1_0.index t (0 : Fin 4) * 1 + 1 * (u 0).val = (k 0).val; rw [e0, h0]; omega
  | ⟨1, _⟩ => show win1_0.index t (1 : Fin 4) * 256 + 1 * (u 1).val = (k 1).val; rw [e1, h1]; omega
  | ⟨2, _⟩ => show win1_0.index t (2 : Fin 4) * 56 + 1 * (u 2).val = (k 2).val; rw [e2, h2]; omega
  | ⟨3, _⟩ => show win1_0.index t (3 : Fin 4) * 56 + 1 * (u 3).val = (k 3).val; rw [e3, h3]; omega

/-- The multiplier window's block at point t is sample t of the multiplier array. -/
theorem iblk1_1_apply (c : Dev nD) (t : Fin cfg1.N) (u : S1x256x1x1.Idx) (k : S32x256x1x1.Idx)
    (h0 : (k 0).val = t.val * 1 + (u 0).val) (h1 : (k 1).val = (u 1).val) :
    (iblk1 V c 1 t : Vec Ideal S1x256x1x1 .f32) u = (V c main_v47 : S32x256x1x1.Idx → EReal) k := by
  obtain ⟨-, -, -, -, e0, e1, e2, e3, -⟩ := idx_facts1 t
  have hu2 : (u 2).val < 1 := (u 2).isLt
  have hu3 : (u 3).val < 1 := (u 3).isLt
  have hk2 : (k 2).val < 1 := (k 2).isLt
  have hk3 : (k 3).val < 1 := (k 3).isLt
  unfold iblk1
  rw [View.read_apply]
  show V c main_v47 _ = V c main_v47 _
  congr 1
  funext a
  apply Fin.ext
  match a with
  | ⟨0, _⟩ => show win1_1.index t (0 : Fin 4) * 1 + 1 * (u 0).val = (k 0).val; rw [e0, h0]; omega
  | ⟨1, _⟩ => show win1_1.index t (1 : Fin 4) * 256 + 1 * (u 1).val = (k 1).val; rw [e1, h1]; omega
  | ⟨2, _⟩ => show win1_1.index t (2 : Fin 4) * 1 + 1 * (u 2).val = (k 2).val; rw [e2]; omega
  | ⟨3, _⟩ => show win1_1.index t (3 : Fin 4) * 1 + 1 * (u 3).val = (k 3).val; rw [e3]; omega

/-- The offset window's block at point t is sample t of the offset array. -/
theorem iblk1_2_apply (c : Dev nD) (t : Fin cfg1.N) (u : S1x256x1x1.Idx) (k : S32x256x1x1.Idx)
    (h0 : (k 0).val = t.val * 1 + (u 0).val) (h1 : (k 1).val = (u 1).val) :
    (iblk1 V c 2 t : Vec Ideal S1x256x1x1 .f32) u = (V c main_v48 : S32x256x1x1.Idx → EReal) k := by
  obtain ⟨-, -, -, -, -, -, -, -, e0, e1, e2, e3, -⟩ := idx_facts1 t
  have hu2 : (u 2).val < 1 := (u 2).isLt
  have hu3 : (u 3).val < 1 := (u 3).isLt
  have hk2 : (k 2).val < 1 := (k 2).isLt
  have hk3 : (k 3).val < 1 := (k 3).isLt
  unfold iblk1
  rw [View.read_apply]
  show V c main_v48 _ = V c main_v48 _
  congr 1
  funext a
  apply Fin.ext
  match a with
  | ⟨0, _⟩ => show win1_2.index t (0 : Fin 4) * 1 + 1 * (u 0).val = (k 0).val; rw [e0, h0]; omega
  | ⟨1, _⟩ => show win1_2.index t (1 : Fin 4) * 256 + 1 * (u 1).val = (k 1).val; rw [e1, h1]; omega
  | ⟨2, _⟩ => show win1_2.index t (2 : Fin 4) * 1 + 1 * (u 2).val = (k 2).val; rw [e2]; omega
  | ⟨3, _⟩ => show win1_2.index t (3 : Fin 4) * 1 + 1 * (u 3).val = (k 3).val; rw [e3]; omega

/-- What point t writes back is block t of `affArr` of the three input arrays. -/
theorem flushed_affine (c : Dev nD) (t : Fin cfg1.N) :
    (dat1 V c).flushed 3 t
      = ((cfg1.win 3).blk t).view.read (Elt Ideal) (affArr (V c main_arg0) (V c main_v47) (V c main_v48)) := by
  show (cfg1.win 3).cut (grid1.coords t) ((dat1 V c).after 3 t) = _
  rw [after1_3]
  unfold out1_3
  rw [View.canon_unit_zero hz4']
  simp only [View.ld_unit_zero (S := S1x256x56x56) hz4', View.ld_unit_zero (S := S1x256x1x1) hz4']
  obtain ⟨-, -, -, -, -, -, -, -, -, -, -, -, e0, e1, e2, e3⟩ := idx_facts1 t
  funext j
  refine affine_block (V c main_arg0) (V c main_v47) (V c main_v48) (iblk1 V c 0 t) (iblk1 V c 1 t) (iblk1 V c 2 t) t.val
    (fun u k h0 h1 h2 h3 => iblk1_0_apply V c t u k h0 h1 h2 h3)
    (fun u k h0 h1 => iblk1_1_apply V c t u k h0 h1)
    (fun u k h0 h1 => iblk1_2_apply V c t u k h0 h1)
    j (((cfg1.win 3).blk t).view.emb j) ?_ ?_ ?_ ?_
  · show win1_3.index t (0 : Fin 4) * 1 + 1 * (j 0).val = t.val * 1 + (j 0).val
    rw [e0]; omega
  · show win1_3.index t (1 : Fin 4) * 256 + 1 * (j 1).val = (j 1).val
    rw [e1]; omega
  · show win1_3.index t (2 : Fin 4) * 56 + 1 * (j 2).val = (j 2).val
    rw [e2]; omega
  · show win1_3.index t (3 : Fin 4) * 56 + 1 * (j 3).val = (j 3).val
    rw [e3]; omega

/-- An index of the output array is in point t's block iff each coordinate is in the block's range on its axis. -/
theorem mem_blk_affine (t : Fin cfg1.N) (i : S32x256x56x56.Idx) :
    i ∈ ((cfg1.win 3).blk t).view.set ↔ ∀ a : Fin 4, win1_3.index t a * S1x256x56x56.size a ≤ (i a).val ∧ (i a).val < win1_3.index t a * S1x256x56x56.size a + S1x256x56x56.size a := by
  show i ∈ ((View.whole main_v49).slice (win1_3.rect t)).set ↔ _
  rw [View.set_slice_whole, Rect.mem_set_unit]
  exact Iff.rfl

/-- Sample b of the output array is in the block of point b, which writes back. -/
theorem cover_affine (i : S32x256x56x56.Idx) : ∃ t : Fin cfg1.N, (cfg1.win 3).flush t = true ∧ i ∈ ((cfg1.win 3).blk t).view.set := by
  have hi0 : (i 0).val < 32 := (i 0).isLt
  have hi1 : (i 1).val < 256 := (i 1).isLt
  have hi2 : (i 2).val < 56 := (i 2).isLt
  have hi3 : (i 3).val < 56 := (i 3).isLt
  have hN : cfg1.N = 32 := N_1
  let t : Fin cfg1.N := ⟨(i 0).val, by rw [hN]; omega⟩
  obtain ⟨-, -, -, -, -, -, -, -, -, -, -, -, e0, e1, e2, e3⟩ := idx_facts1 t
  have ht : t.val = (i 0).val := rfl
  refine ⟨t, flush1_3 t, ?_⟩
  rw [mem_blk_affine]
  intro a
  match a with
  | ⟨0, _⟩ => show win1_3.index t (0 : Fin 4) * 1 ≤ (i 0).val ∧ (i 0).val < win1_3.index t (0 : Fin 4) * 1 + 1; rw [e0, ht]; omega
  | ⟨1, _⟩ => show win1_3.index t (1 : Fin 4) * 256 ≤ (i 1).val ∧ (i 1).val < win1_3.index t (1 : Fin 4) * 256 + 256; rw [e1]; omega
  | ⟨2, _⟩ => show win1_3.index t (2 : Fin 4) * 56 ≤ (i 2).val ∧ (i 2).val < win1_3.index t (2 : Fin 4) * 56 + 56; rw [e2]; omega
  | ⟨3, _⟩ => show win1_3.index t (3 : Fin 4) * 56 ≤ (i 3).val ∧ (i 3).val < win1_3.index t (3 : Fin 4) * 56 + 56; rw [e3]; omega

/-- After the second grid its output array is `affArr` of the three input arrays. -/
theorem affine_final (c : Dev nD) :
    (dat1 V c).arrAt 3 cfg1.N = affArr (V c main_arg0) (V c main_v47) (V c main_v48) :=
  (dat1 V c).arrAt_eq_of_cover 3 (affArr (V c main_arg0) (V c main_v47) (V c main_v48)) (fun t _ => flushed_affine V c t) cover_affine

end Cert.KernelIdeal.Region

end
-- ==== Proof.Regions.lean ====
/-
  What the two grids leave in their output arrays, entry by entry, for any contents V of the buffers at a grid's entry.

  First grid (16 points, two samples each): output 1 at (b, c, 0) is the sum over the 56 x 56 positions of the input at
  (b, c, ·, ·); output 2 the sum of the squares.  Second grid (32 points, one sample each): the output at (b, c, h, w) is
  the input there times the multiplier array at (b, c, 0, 0) plus the offset array at (b, c, 0, 0).

  The whole-array forms are in the two modules imported here (the first grid's two sums, the second grid's affine map);
  below each is read at one entry.
-/
import proofs.«142900_j24163486007874_2_alg».proof.Proof.RegionsStats
import proofs.«142900_j24163486007874_2_alg».proof.Proof.RegionsAffine

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem sums_at (c : Dev nD) (x : FVec Ideal S32x256x56x56 .f32) (hx : V c main_arg0 = x) (b : Fin 32) (ch : Fin 256) :
    ((dat0 V c).arrAt 1 cfg0.N : S32x256x1.Idx → EReal) (ix3 b ch (0 : Fin 1))
      = ∑ h : Fin 56, ∑ w : Fin 56, x (ix4 b ch h w) := by
  subst hx
  exact congrFun (sums_final V c) (ix3 b ch (0 : Fin 1))

theorem sumsSq_at (c : Dev nD) (x : FVec Ideal S32x256x56x56 .f32) (hx : V c main_arg0 = x) (b : Fin 32) (ch : Fin 256) :
    ((dat0 V c).arrAt 2 cfg0.N : S32x256x1.Idx → EReal) (ix3 b ch (0 : Fin 1))
      = ∑ h : Fin 56, ∑ w : Fin 56, x (ix4 b ch h w) * x (ix4 b ch h w) := by
  subst hx
  exact congrFun (sumsSq_final V c) (ix3 b ch (0 : Fin 1))

theorem affine_at (c : Dev nD) (x : FVec Ideal S32x256x56x56 .f32) (A B : FVec Ideal S32x256x1x1 .f32)
    (hx : V c main_arg0 = x) (hA : V c main_v47 = A) (hB : V c main_v48 = B) (b : Fin 32) (ch : Fin 256) (h w : Fin 56) :
    ((dat1 V c).arrAt 3 cfg1.N : S32x256x56x56.Idx → EReal) (ix4 b ch h w)
      = x (ix4 b ch h w) * A (ix4 b ch (0 : Fin 1) (0 : Fin 1)) + B (ix4 b ch (0 : Fin 1) (0 : Fin 1)) := by
  subst hx hA hB
  exact congrFun (affine_final V c) (ix4 b ch h w)

end Cert.KernelIdeal.Region

end
-- ==== Proof.KernelRunPost.lean ====
/-
  The kernel program's run with its two result buffers named: every execution ends with each unscoped buffer at the
  contents the last segment boundary gives it, so the first result's buffer, the gates' buffer and the five argument
  buffers are read off that boundary's valuation.
-/
import proofs.«142900_j24163486007874_2_alg».proof.Proof.Gen.KernelIdeal.Frame
import Idealize.ShloMosaic.PureOps.Ideal

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every execution ends with the first result's buffer and the gates' buffer at the last boundary's contents, and the
    five arguments as launched. -/
theorem run_W5 : θ_run (defs (F := Ideal)) (onTc (τ := τ) (main (F := Ideal))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_v34) = W5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       h c _ (mem_uc main_v34 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Val

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.KernelRunHost.lean ====
/-
  The host operations between the two grids, read: from the first grid's two output arrays (the sums and the sums of
  squares, each [32, 256, 1]) and the four parameter arrays, the gates' buffer holds the gates of the sums, and the
  second grid's multiplier and offset buffers hold the multiplier and the offset arrays of the sums and the sums of
  squares, each laid out [32, 256, 1, 1].

  The three stretches of host operations are joined into one line and read against an arbitrary valuation of the
  buffers; the one operation of the middle stretch writes and reads its buffers through transports along an equation of
  buffer types whose two sides are the same type, so each transport is the identity and the line's composed term is the
  stages' composition as it stands.  The first
  grid's arrays are then put in: each entry of the reshaped sums array is the sum over the 56 x 56 positions.
-/
import proofs.«142900_j24163486007874_2_alg».proof.Proof.Gen.KernelIdeal.Frame
import proofs.«142900_j24163486007874_2_alg».proof.Proof.Terms
import proofs.«142900_j24163486007874_2_alg».proof.Proof.Regions
import proofs.«142900_j24163486007874_2_alg».proof.Proof.LibAfterAppend
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Stage

/-! ## The two reshapes -/

/-- A [32, 256, 1] array read as [32, 256]: the same entries in row-major order. -/
def flat (S3 : FVec Ideal S32x256x1 .f32) : FVec Ideal S32x256 .f32 :=
  shapeCast S32x256 S3 Facts₀.shapeCasts_S32x256x1_S32x256

/-- A [32, 256] array read as [32, 256, 1, 1]: the same entries in row-major order. -/
def unflat (A : FVec Ideal S32x256 .f32) : FVec Ideal S32x256x1x1 .f32 :=
  shapeCast S32x256x1x1 A Facts₀.shapeCasts_S32x256_S32x256x1x1

/-- Entry (b, c) of the flattened array is entry (b, c, 0): both sit at row-major position 256 b + c. -/
theorem flat_apply (S3 : FVec Ideal S32x256x1 .f32) (b : Fin 32) (ch : Fin 256) :
    flat S3 (ix2 b ch) = S3 (ix3 b ch (0 : Fin 1)) := by
  unfold flat
  refine shapeCast_apply S3 _ (ix2 b ch) (ix3 b ch (0 : Fin 1)) ?_
  rw [Shape.rowMajor_val_three, Shape.rowMajor_val_two]
  show (b.val * 256 + ch.val) * 1 + 0 = b.val * 256 + ch.val
  omega

/-- Entry (b, c, 0, 0) of the unflattened array is entry (b, c): both sit at row-major position 256 b + c. -/
theorem unflat_apply (A : FVec Ideal S32x256 .f32) (b : Fin 32) (ch : Fin 256) :
    unflat A (ix4 b ch (0 : Fin 1) (0 : Fin 1)) = A (ix2 b ch) := by
  unfold unflat
  refine shapeCast_apply A _ (ix4 b ch (0 : Fin 1) (0 : Fin 1)) (ix2 b ch) ?_
  rw [Shape.rowMajor_val_four, Shape.rowMajor_val_two]
  show b.val * 256 + ch.val = ((b.val * 256 + ch.val) * 1 + 0) * 1 + 0
  omega

/-! ## The host line against an arbitrary valuation -/

section Line

variable (W : Valuation τ sig (Elt Ideal))

/-- The three stretches one after the other are their concatenation run as one line. -/
theorem after_three :
    StableHlo.after hostOps1_2 (StableHlo.after hostOps1_1 (StableHlo.after hostOps1 W))
      = StableHlo.after (hostOps1 ++ hostOps1_1 ++ hostOps1_2) W := by
  rw [StableHlo.after_append, StableHlo.after_append]

/-- After the line the gates' buffer holds the gates of the flattened sums. -/
theorem line_v34 :
    (StableHlo.after (hostOps1 ++ hostOps1_1 ++ hostOps1_2) W (Proc.devRef .tc main_v34) : FVec Ideal S32x3 .f32)
      = gates (flat (W (Proc.devRef .tc main_v0_0))) (W (Proc.devRef .tc main_arg1)) (W (Proc.devRef .tc main_arg2)) := by
  simp only [hostOps1, hostOps1_1, hostOps1_2, List.cons_append, List.nil_append]
  after_results_simp
  rfl

/-- After the line the multiplier's buffer holds the multiplier array, laid out [32, 256, 1, 1]. -/
theorem line_v47 :
    (StableHlo.after (hostOps1 ++ hostOps1_1 ++ hostOps1_2) W (Proc.devRef .tc main_v47) : FVec Ideal S32x256x1x1 .f32)
      = unflat (coefA (gates (flat (W (Proc.devRef .tc main_v0_0))) (W (Proc.devRef .tc main_arg1)) (W (Proc.devRef .tc main_arg2)))
          (W (Proc.devRef .tc main_arg3)) (flat (W (Proc.devRef .tc main_v0_0))) (flat (W (Proc.devRef .tc main_v0_1)))) := by
  simp only [hostOps1, hostOps1_1, hostOps1_2, List.cons_append, List.nil_append]
  after_results_simp
  rfl

/-- After the line the offset's buffer holds the offset array, laid out [32, 256, 1, 1]. -/
theorem line_v48 :
    (StableHlo.after (hostOps1 ++ hostOps1_1 ++ hostOps1_2) W (Proc.devRef .tc main_v48) : FVec Ideal S32x256x1x1 .f32)
      = unflat (coefB (gates (flat (W (Proc.devRef .tc main_v0_0))) (W (Proc.devRef .tc main_arg1)) (W (Proc.devRef .tc main_arg2)))
          (W (Proc.devRef .tc main_arg3)) (W (Proc.devRef .tc main_arg4))
          (flat (W (Proc.devRef .tc main_v0_0))) (flat (W (Proc.devRef .tc main_v0_1)))) := by
  simp only [hostOps1, hostOps1_1, hostOps1_2, List.cons_append, List.nil_append]
  after_results_simp
  rfl

end Line

/-! ## The first grid's arrays and the arguments at the first grid's exit -/

section Run

variable (m : (ℓ : Loc nD τ sig) → Buf (Elt Ideal) ℓ) (ρ : Dev nD → PrngReg) (c : Dev nD)

/-- The flattened first output of the first grid is the input summed over its positions. -/
theorem W1_sums : flat (W1 m ρ c (Proc.devRef .tc main_v0_0)) = sums (m ((c.tc : Thread nD τ).loc main_arg0)) := by
  funext i
  obtain ⟨b, ch, rfl⟩ : ∃ (b : Fin 32) (ch : Fin 256), i = ix2 b ch := ⟨i 0, i 1, eq_ix2 i⟩
  rw [flat_apply, show W1 m ρ c (Proc.devRef .tc main_v0_0) = (dat0 (V0 m ρ) c).arrAt 1 cfg0.N from W1_arr m ρ c 1]
  exact Region.sums_at (V0 m ρ) c _ rfl b ch

/-- The flattened second output of the first grid is the squared input summed over its positions. -/
theorem W1_sumsSq : flat (W1 m ρ c (Proc.devRef .tc main_v0_1)) = sumsSq (m ((c.tc : Thread nD τ).loc main_arg0)) := by
  funext i
  obtain ⟨b, ch, rfl⟩ : ∃ (b : Fin 32) (ch : Fin 256), i = ix2 b ch := ⟨i 0, i 1, eq_ix2 i⟩
  rw [flat_apply, show W1 m ρ c (Proc.devRef .tc main_v0_1) = (dat0 (V0 m ρ) c).arrAt 2 cfg0.N from W1_arr m ρ c 2]
  exact Region.sumsSq_at (V0 m ρ) c _ rfl b ch

/-- The first grid writes none of the four parameter arrays. -/
theorem W1_arg1 : W1 m ρ c (Proc.devRef .tc main_arg1) = m ((c.tc : Thread nD τ).loc main_arg1) :=
  W1_of_ne m ρ c main_arg1 (by decide)
theorem W1_arg2 : W1 m ρ c (Proc.devRef .tc main_arg2) = m ((c.tc : Thread nD τ).loc main_arg2) :=
  W1_of_ne m ρ c main_arg2 (by decide)
theorem W1_arg3 : W1 m ρ c (Proc.devRef .tc main_arg3) = m ((c.tc : Thread nD τ).loc main_arg3) :=
  W1_of_ne m ρ c main_arg3 (by decide)
theorem W1_arg4 : W1 m ρ c (Proc.devRef .tc main_arg4) = m ((c.tc : Thread nD τ).loc main_arg4) :=
  W1_of_ne m ρ c main_arg4 (by decide)

/-! ## The second grid's entry contents -/

/-- At the second grid's entry the gates' buffer holds the kernel program's gates. -/
theorem W4_v34 : (W4 m ρ c (Proc.devRef .tc main_v34) : FVec Ideal S32x3 .f32)
    = kerGates (m ((c.tc : Thread nD τ).loc main_arg0)) (m ((c.tc : Thread nD τ).loc main_arg1)) (m ((c.tc : Thread nD τ).loc main_arg2)) := by
  show StableHlo.after hostOps1_2 (StableHlo.after hostOps1_1 (StableHlo.after hostOps1 (W1 m ρ c))) (Proc.devRef .tc main_v34) = _
  rw [after_three, line_v34, W1_sums, W1_arg1, W1_arg2]
  rfl

/-- At the second grid's entry the multiplier's buffer holds the multiplier array, laid out [32, 256, 1, 1]. -/
theorem W4_v47 : (W4 m ρ c (Proc.devRef .tc main_v47) : FVec Ideal S32x256x1x1 .f32)
    = unflat (coefA (kerGates (m ((c.tc : Thread nD τ).loc main_arg0)) (m ((c.tc : Thread nD τ).loc main_arg1)) (m ((c.tc : Thread nD τ).loc main_arg2)))
        (m ((c.tc : Thread nD τ).loc main_arg3)) (sums (m ((c.tc : Thread nD τ).loc main_arg0))) (sumsSq (m ((c.tc : Thread nD τ).loc main_arg0)))) := by
  show StableHlo.after hostOps1_2 (StableHlo.after hostOps1_1 (StableHlo.after hostOps1 (W1 m ρ c))) (Proc.devRef .tc main_v47) = _
  rw [after_three, line_v47, W1_sums, W1_sumsSq, W1_arg1, W1_arg2, W1_arg3]
  rfl

/-- At the second grid's entry the offset's buffer holds the offset array, laid out [32, 256, 1, 1]. -/
theorem W4_v48 : (W4 m ρ c (Proc.devRef .tc main_v48) : FVec Ideal S32x256x1x1 .f32)
    = unflat (coefB (kerGates (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))
        (sums (m ((c.tc : Thread nD τ).loc main_arg0))) (sumsSq (m ((c.tc : Thread nD τ).loc main_arg0)))) := by
  show StableHlo.after hostOps1_2 (StableHlo.after hostOps1_1 (StableHlo.after hostOps1 (W1 m ρ c))) (Proc.devRef .tc main_v48) = _
  rw [after_three, line_v48, W1_sums, W1_sumsSq, W1_arg1, W1_arg2, W1_arg3, W1_arg4]
  rfl

/-- At the second grid's entry the input array is as launched: the second grid reads it through a window and leaves
    it, and its exit contents are the launch's. -/
theorem W4_arg0 : W4 m ρ c (Proc.devRef .tc main_arg0) = m ((c.tc : Thread nD τ).loc main_arg0) :=
  ((W5_arr m ρ c 0).trans (((dat1 (V4 m ρ) c).arrAt_in 0 rfl _).trans (A_eq1 (V4 m ρ) c 0))).symm.trans (W5_main_arg0 m ρ c)

/-! ## The last boundary's contents at the two results -/

/-- At the last boundary the gates' buffer holds the kernel program's gates: the second grid does not write it. -/
theorem W5_v34 : (W5 m ρ c (Proc.devRef .tc main_v34) : FVec Ideal S32x3 .f32)
    = kerGates (m ((c.tc : Thread nD τ).loc main_arg0)) (m ((c.tc : Thread nD τ).loc main_arg1)) (m ((c.tc : Thread nD τ).loc main_arg2)) :=
  (W5_of_ne m ρ c main_v34 (by decide)).trans (W4_v34 m ρ c)

/-- At the last boundary the first result's buffer is the second grid's output array: entry (b, c, h, w) is the input
    there times the multiplier buffer's entry (b, c, 0, 0) plus the offset buffer's, and those are the multiplier's and
    the offset's entry (b, c). -/
theorem W5_v49 : (W5 m ρ c (Proc.devRef .tc main_v49) : FVec Ideal S32x256x56x56 .f32)
    = kerOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W5_arr m ρ c 3).trans ?_
  funext i
  obtain ⟨b, ch, h, w, rfl⟩ : ∃ (b : Fin 32) (ch : Fin 256) (h w : Fin 56), i = ix4 b ch h w := ⟨i 0, i 1, i 2, i 3, eq_ix4 i⟩
  refine (Region.affine_at (V4 m ρ) c _ _ _ (W4_arg0 m ρ c) (W4_v47 m ρ c) (W4_v48 m ρ c) b ch h w).trans ?_
  rw [unflat_apply, unflat_apply]
  rfl

end Run

end Cert.KernelIdeal.Val

end
-- ==== Proof.KernelRun.lean ====
/-
  The kernel program's run, read: every execution ends with its first result at the input times the multiplier plus the
  offset of each (sample, channel), its second result at the gates, and the five arguments as launched.

  The run ends with every buffer at the last segment boundary's contents.  There the first result's buffer is the
  second grid's output array, whose entry (b, c, h, w) is the input there times the multiplier buffer's entry
  (b, c, 0, 0) plus the offset buffer's; at the second grid's entry those two buffers hold the multiplier and the offset
  arrays of the first grid's sums, laid out [32, 256, 1, 1].  The gates' buffer is not written by the second grid.
-/
import proofs.«142900_j24163486007874_2_alg».proof.Proof.Gen.KernelIdeal.Frame
import proofs.«142900_j24163486007874_2_alg».proof.Proof.Terms
import proofs.«142900_j24163486007874_2_alg».proof.Proof.Regions
import proofs.«142900_j24163486007874_2_alg».proof.Proof.KernelRunPost
import proofs.«142900_j24163486007874_2_alg».proof.Proof.KernelRunHost

noncomputable section

namespace Cert.KernelIdeal.Val

open Idealize.ShloMosaic Idealize.ShloMosaic.TcCoe Idealize.SL.Sem Cert.KernelIdeal Cert.KernelIdeal.Stage

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v34)
        = kerGates (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun r h c => ⟨(h c).1.trans (W5_v49 m ρ c), (h c).2.1.trans (W5_v34 m ρ c), (h c).2.2⟩)
    (run_W5 m ρ)

end Cert.KernelIdeal.Val

end
-- ==== Proof.RefRunOps.lean ====
/-
  The reference program as one straight line of host operations.

  The reference's entry function is a sequence of array operations with two calls of outlined functions: a select
  (the leaky rectifier's choice) and the variance routine, which itself calls a second select. Executing a call is
  executing the callee's body on the operands, so the whole program is the list of the operations with each callee's
  lines written at its call site over that call's own buffers: 79 operations.
-/
import proofs.«142900_j24163486007874_2_alg».proof.ReferenceIdeal
import Idealize.ShloMosaic.Lib.StableHlo.Run

noncomputable section

namespace Cert.ReferenceIdeal.Val

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- The 79 operations, in order: the entry function's own, the rectifier's select at its call, and the variance
    routine's nineteen followed by its select's three at theirs. -/
abbrev ops : List (HloOp τ sig (Elt F)) :=
  [
    nullary main_cst (constant S_ .f32 0x00000000#32),
    binary main_arg0 main_cst main_v0 ((fun x v => Host.reduceAdd x v reducesTo_S32x256x56x56_S32x256_d2_3 h_S_) : (⟨S32x256x56x56, .f32⟩ : BufTy).Contents (Elt F) → (⟨S_, .f32⟩ : BufTy).Contents (Elt F) → (⟨S32x256, .f32⟩ : BufTy).Contents (Elt F)),
    nullary main_cst_0 (constant S_ .f32 0x45440000#32),
    unary main_cst_0 main_v1 (broadcastInDim S32x256 ![] bcast_S_S32x256 : (⟨S_, .f32⟩ : BufTy).Contents (Elt F) → (⟨S32x256, .f32⟩ : BufTy).Contents (Elt F)),
    binary main_v0 main_v1 main_v2 (Host.divf : (⟨S32x256, .f32⟩ : BufTy).Contents (Elt F) → (⟨S32x256, .f32⟩ : BufTy).Contents (Elt F) → (⟨S32x256, .f32⟩ : BufTy).Contents (Elt F)),
    unary main_arg1 main_v3 ((transpose S256x25 [1, 0] · transposes_S25x256_S256x25_1_0) : (⟨S25x256, .f32⟩ : BufTy).Contents (Elt F) → (⟨S256x25, .f32⟩ : BufTy).Contents (Elt F)),
    binary main_v2 main_v3 main_v4 ((fun l r => Host.dotGeneral dot_S32x256_S256x25_S32x25_1_0_0_1_n_n none l r) : (⟨S32x256, .f32⟩ : BufTy).Contents (Elt F) → (⟨S256x25, .f32⟩ : BufTy).Contents (Elt F) → (⟨S32x25, .f32⟩ : BufTy).Contents (Elt F)),
    nullary main_cst_1 (constant S_ .f32 0x00000000#32),
    unary main_cst_1 main_v5 (broadcastInDim S32x25 ![] bcast_S_S32x25 : (⟨S_, .f32⟩ : BufTy).Contents (Elt F) → (⟨S32x25, .f32⟩ : BufTy).Contents (Elt F)),
    binary main_v4 main_v5 main_v6 (cmpf .ogt : (⟨S32x25, .f32⟩ : BufTy).Contents (Elt F) → (⟨S32x25, .f32⟩ : BufTy).Contents (Elt F) → (⟨S32x25, .i1⟩ : BufTy).Contents (Elt F)),
    nullary main_cst_2 (constant S_ .f32 0x3C23D70A#32),
    unary main_cst_2 main_v7 (broadcastInDim S32x25 ![] bcast_S_S32x25 : (⟨S_, .f32⟩ : BufTy).Contents (Elt F) → (⟨S32x25, .f32⟩ : BufTy).Contents (Elt F)),
    binary main_v7 main_v4 main_v8 (mulf : (⟨S32x25, .f32⟩ : BufTy).Contents (Elt F) → (⟨S32x25, .f32⟩ : BufTy).Contents (Elt F) → (⟨S32x25, .f32⟩ : BufTy).Contents (Elt F)),
    TRef.ternary (.of main_v6 : TRef sig ⟨S32x25, .i1⟩) (.of main_v4 : TRef sig ⟨S32x25, .f32⟩) (.of main_v8 : TRef sig ⟨S32x25, .f32⟩) main_call0.v0 select,
    unary main_arg2 main_v10 ((transpose S25x3 [1, 0] · transposes_S3x25_S25x3_1_0) : (⟨S3x25, .f32⟩ : BufTy).Contents (Elt F) → (⟨S25x3, .f32⟩ : BufTy).Contents (Elt F)),
    binary main_v9 main_v10 main_v11 ((fun l r => Host.dotGeneral dot_S32x25_S25x3_S32x3_1_0_0_1_n_n none l r) : (⟨S32x25, .f32⟩ : BufTy).Contents (Elt F) → (⟨S25x3, .f32⟩ : BufTy).Contents (Elt F) → (⟨S32x3, .f32⟩ : BufTy).Contents (Elt F)),
    nullary main_cst_3 (constant S_ .f32 0x41F00000#32),
    unary main_cst_3 main_v12 (broadcastInDim S32x3 ![] bcast_S_S32x3 : (⟨S_, .f32⟩ : BufTy).Contents (Elt F) → (⟨S32x3, .f32⟩ : BufTy).Contents (Elt F)),
    binary main_v11 main_v12 main_v13 (Host.divf : (⟨S32x3, .f32⟩ : BufTy).Contents (Elt F) → (⟨S32x3, .f32⟩ : BufTy).Contents (Elt F) → (⟨S32x3, .f32⟩ : BufTy).Contents (Elt F)),
    nullary main_cst_4 (constant S_ .f32 0xFF800000#32),
    binary main_v13 main_cst_4 main_v14 ((fun x v => Host.reduce FloatOps.maximumf x v reducesTo_S32x3_S32_d1 h_S_) : (⟨S32x3, .f32⟩ : BufTy).Contents (Elt F) → (⟨S_, .f32⟩ : BufTy).Contents (Elt F) → (⟨S32, .f32⟩ : BufTy).Contents (Elt F)),
    nullary main_cst_5 (constant S_ .f32 0xFF800000#32),
    unary main_cst_5 main_v15 (broadcastInDim S32 ![] bcast_S_S32 : (⟨S_, .f32⟩ : BufTy).Contents (Elt F) → (⟨S32, .f32⟩ : BufTy).Contents (Elt F)),
    binary main_v15 main_v14 main_v16 (maximumf : (⟨S32, .f32⟩ : BufTy).Contents (Elt F) → (⟨S32, .f32⟩ : BufTy).Contents (Elt F) → (⟨S32, .f32⟩ : BufTy).Contents (Elt F)),
    unary main_v16 main_v17 (broadcastInDim S32x1 ![0] bcast_S32_S32x1_0 : (⟨S32, .f32⟩ : BufTy).Contents (Elt F) → (⟨S32x1, .f32⟩ : BufTy).Contents (Elt F)),
    unary main_v17 main_v18 (broadcastInDim S32x3 ![0, 1] bcast_S32x1_S32x3_0_1 : (⟨S32x1, .f32⟩ : BufTy).Contents (Elt F) → (⟨S32x3, .f32⟩ : BufTy).Contents (Elt F)),
    binary main_v13 main_v18 main_v19 (subf : (⟨S32x3, .f32⟩ : BufTy).Contents (Elt F) → (⟨S32x3, .f32⟩ : BufTy).Contents (Elt F) → (⟨S32x3, .f32⟩ : BufTy).Contents (Elt F)),
    unary main_v19 main_v20 (Host.exp : (⟨S32x3, .f32⟩ : BufTy).Contents (Elt F) → (⟨S32x3, .f32⟩ : BufTy).Contents (Elt F)),
    nullary main_cst_6 (constant S_ .f32 0x00000000#32),
    binary main_v20 main_cst_6 main_v21 ((fun x v => Host.reduceAdd x v reducesTo_S32x3_S32_d1 h_S_) : (⟨S32x3, .f32⟩ : BufTy).Contents (Elt F) → (⟨S_, .f32⟩ : BufTy).Contents (Elt F) → (⟨S32, .f32⟩ : BufTy).Contents (Elt F)),
    unary main_v21 main_v22 (broadcastInDim S32x1 ![0] bcast_S32_S32x1_0 : (⟨S32, .f32⟩ : BufTy).Contents (Elt F) → (⟨S32x1, .f32⟩ : BufTy).Contents (Elt F)),
    unary main_v22 main_v23 (broadcastInDim S32x3 ![0, 1] bcast_S32x1_S32x3_0_1 : (⟨S32x1, .f32⟩ : BufTy).Contents (Elt F) → (⟨S32x3, .f32⟩ : BufTy).Contents (Elt F)),
    binary main_v20 main_v23 main_v24 (Host.divf : (⟨S32x3, .f32⟩ : BufTy).Contents (Elt F) → (⟨S32x3, .f32⟩ : BufTy).Contents (Elt F) → (⟨S32x3, .f32⟩ : BufTy).Contents (Elt F)),
    nullary main_cst_7 (constant S_ .f32 0x00000000#32),
    binary main_arg0 main_cst_7 main_v25 ((fun x v => Host.reduceAdd x v reducesTo_S32x256x56x56_S256_d0_2_3 h_S_) : (⟨S32x256x56x56, .f32⟩ : BufTy).Contents (Elt F) → (⟨S_, .f32⟩ : BufTy).Contents (Elt F) → (⟨S256, .f32⟩ : BufTy).Contents (Elt F)),
    nullary main_cst_8 (constant S_ .f32 0x47C40000#32),
    unary main_cst_8 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    nullary main_c (constantI S_ 32 0#32),
    TRef.nullary main_call1.cst (constant S_ .f32 0x00000000#32),
    TRef.binary (.of main_arg0 : TRef sig ⟨S32x256x56x56, .f32⟩) main_call1.cst main_call1.v0 (fun x v => Host.reduceAdd x v reducesTo_S32x256x56x56_S256_d0_2_3 h_S_),
    TRef.unary main_call1.v0 main_call1.v1 (broadcastInDim S1x256x1x1 ![1] bcast_S256_S1x256x1x1_1),
    TRef.nullary main_call1.cst_0 (constant S_ .f32 0x47C40000#32),
    TRef.unary main_call1.cst_0 main_call1.v2 (broadcastInDim S1x256x1x1 ![] bcast_S_S1x256x1x1),
    TRef.binary main_call1.v1 main_call1.v2 main_call1.v3 Host.divf,
    TRef.unary main_call1.v3 main_call1.v4 (broadcastInDim S32x256x56x56 ![0, 1, 2, 3] bcast_S1x256x1x1_S32x256x56x56_0_1_2_3),
    TRef.binary (.of main_arg0 : TRef sig ⟨S32x256x56x56, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant S_ .f32 0x47C40000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x256x56x56_S256_d0_2_3 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v27 main_v29 (broadcastInDim S1x256x1x1 ![1] bcast_S256_S1x256x1x1_1 : (⟨S256, .f32⟩ : BufTy).Contents (Elt F) → (⟨S1x256x1x1, .f32⟩ : BufTy).Contents (Elt F)),
    unary main_v29 main_v30 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_arg0 main_v30 main_v31 (subf : (⟨S32x256x56x56, .f32⟩ : BufTy).Contents (Elt F) → (⟨S32x256x56x56, .f32⟩ : BufTy).Contents (Elt F) → (⟨S32x256x56x56, .f32⟩ : BufTy).Contents (Elt F)),
    nullary main_cst_9 (constant S_ .f32 0x3727C5AC#32),
    unary main_cst_9 main_v32 (broadcastInDim S256 ![] bcast_S_S256 : (⟨S_, .f32⟩ : BufTy).Contents (Elt F) → (⟨S256, .f32⟩ : BufTy).Contents (Elt F)),
    binary main_v28 main_v32 main_v33 (addf : (⟨S256, .f32⟩ : BufTy).Contents (Elt F) → (⟨S256, .f32⟩ : BufTy).Contents (Elt F) → (⟨S256, .f32⟩ : BufTy).Contents (Elt F)),
    unary main_v33 main_v34 (Host.rsqrt : (⟨S256, .f32⟩ : BufTy).Contents (Elt F) → (⟨S256, .f32⟩ : BufTy).Contents (Elt F)),
    unary main_v34 main_v35 (broadcastInDim S1x256x1x1 ![1] bcast_S256_S1x256x1x1_1 : (⟨S256, .f32⟩ : BufTy).Contents (Elt F) → (⟨S1x256x1x1, .f32⟩ : BufTy).Contents (Elt F)),
    unary main_v35 main_v36 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v31 main_v36 main_v37 (mulf : (⟨S32x256x56x56, .f32⟩ : BufTy).Contents (Elt F) → (⟨S32x256x56x56, .f32⟩ : BufTy).Contents (Elt F) → (⟨S32x256x56x56, .f32⟩ : BufTy).Contents (Elt F)),
    binary main_v24 main_arg3 main_v38 ((fun l r => Host.dotGeneral dot_S32x3_S3x256_S32x256_1_0_0_1_n_n none l r) : (⟨S32x3, .f32⟩ : BufTy).Contents (Elt F) → (⟨S3x256, .f32⟩ : BufTy).Contents (Elt F) → (⟨S32x256, .f32⟩ : BufTy).Contents (Elt F)),
    binary main_v24 main_arg4 main_v39 ((fun l r => Host.dotGeneral dot_S32x3_S3x256_S32x256_1_0_0_1_n_n none l r) : (⟨S32x3, .f32⟩ : BufTy).Contents (Elt F) → (⟨S3x256, .f32⟩ : BufTy).Contents (Elt F) → (⟨S32x256, .f32⟩ : BufTy).Contents (Elt F)),
    unary main_v38 main_v40 (broadcastInDim S32x256x1x1 ![0, 1] bcast_S32x256_S32x256x1x1_0_1 : (⟨S32x256, .f32⟩ : BufTy).Contents (Elt F) → (⟨S32x256x1x1, .f32⟩ : BufTy).Contents (Elt F)),
    unary main_v40 main_v41 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_v37 main_v41 main_v42 (mulf : (⟨S32x256x56x56, .f32⟩ : BufTy).Contents (Elt F) → (⟨S32x256x56x56, .f32⟩ : BufTy).Contents (Elt F) → (⟨S32x256x56x56, .f32⟩ : BufTy).Contents (Elt F)),
    unary main_v39 main_v43 (broadcastInDim S32x256x1x1 ![0, 1] bcast_S32x256_S32x256x1x1_0_1 : (⟨S32x256, .f32⟩ : BufTy).Contents (Elt F) → (⟨S32x256x1x1, .f32⟩ : BufTy).Contents (Elt F)),
    unary main_v43 main_v44 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_v42 main_v44 main_v45 (addf : (⟨S32x256x56x56, .f32⟩ : BufTy).Contents (Elt F) → (⟨S32x256x56x56, .f32⟩ : BufTy).Contents (Elt F) → (⟨S32x256x56x56, .f32⟩ : BufTy).Contents (Elt F)) ]

/-- No buffer of the program is scoped to a region. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., binary_bufs_sub ..,
    binary_bufs_sub .., unary_bufs_sub .., unary_bufs_sub .., binary_bufs_sub .., unary_bufs_sub .., unary_bufs_sub ..,
    binary_bufs_sub ..⟩

end Cert.ReferenceIdeal.Val

end
-- ==== Proof.RefRunMain.lean ====
/-
  The reference's run as the fold of its operations.

  The entry function, with the three callees' bodies executed at their calls, is the straight line of the 79
  operations: binding a step after a body is binding it after the body's last step, so both sides compute to the same
  chain of steps. Every execution of that line from a memory with zero counters terminates with each buffer at the
  fold of the operations' results over the contents at launch.
-/
import proofs.«142900_j24163486007874_2_alg».proof.Proof.RefRunOps

noncomputable section

namespace Cert.ReferenceIdeal.Val

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

-- the comparison descends once per operation of the chain
set_option maxRecDepth 16384 in
/-- The entry function is that line: sequencing computes, a callee's body followed by the rest being its steps
    followed by the rest, so the two programs are the same chain of 79 steps. -/
theorem main_eq (c : Dev nD) : main (F := F) c = seq ops := rfl

/-- For any float values, from any memory with zero counters: every weakly fair execution of the reference
    terminates, and every final state has each buffer at the fold of the operations' results over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.RefRunRead.lean ====
/-
  The reference's two results and five arguments after its line of operations, read.

  Folding the 79 operations' results over any contents of the buffers leaves, at the first result's buffer, the
  normalised input times the gated scale plus the gated bias; at the second result's buffer, the gates; and at each
  argument's buffer what was there, no operation writing it. Each result is the operations composed in the printed
  order. An operation of an outlined function moves a value to its buffer's type when it writes and back when the
  next one reads; at these literal buffers both moves are the identity, so the composition is the plain one.

  The functions are stated for any float values; at the exact instance they are the named results of the reference (refGates, refOut) by unfolding.
-/
import proofs.«142900_j24163486007874_2_alg».proof.Proof.RefRunOps
import proofs.«142900_j24163486007874_2_alg».proof.Proof.Terms

noncomputable section

namespace Cert.ReferenceIdeal.Val

open Cert.ReferenceIdeal Cert.ReferenceIdeal.Stage Cert.KernelIdeal.Stage
open Idealize.ShloMosaic Idealize.ShloMosaic.TcCoe Idealize.SL.Sem Idealize.ShloMosaic.StableHlo

variable {F : FTy → Type} [FloatOps F] [Cert.KernelIdeal.Facts] [Cert.ReferenceIdeal.Facts]

/-- The gates as a function of the input and the two dense layers' weights, for any float values. -/
def gatesOf (x : FVec F S32x256x56x56 .f32) (fc1 : FVec F S25x256 .f32) (fc2 : FVec F S3x25 .f32) : FVec F S32x3 .f32 :=
  gates (sums x) fc1 fc2

/-- The normalised input times the gated scale plus the gated bias, for any float values. -/
def outOf (x : FVec F S32x256x56x56 .f32) (fc1 : FVec F S25x256 .f32) (fc2 : FVec F S3x25 .f32)
    (gamma beta : FVec F S3x256 .f32) : FVec F S32x256x56x56 .f32 :=
  addf (mulf (mulf (subf x (full (mean x))) (full (invStd (var x)))) (full2 (mix (gatesOf x fc1 fc2) gamma)))
    (full2 (mix (gatesOf x fc1 fc2) beta))

-- the composed term is as deep as the line is long
set_option maxRecDepth 8192 in
/-- The second result after the line: the operations through the softmax's division, composed, are the gates of the
    arguments (the rectifier's select reads and writes its buffers at their own types). -/
theorem gates_eq (V : Valuation τ sig (Elt F)) :
    after ops V (main_v24 : DevRef τ sig)
      = gatesOf (V (main_arg0 : DevRef τ sig)) (V (main_arg1 : DevRef τ sig)) (V (main_arg2 : DevRef τ sig)) := by
  after_results_simp
  rfl

set_option maxRecDepth 8192 in
/-- The first result after the line: the operations, composed, are the normalised input times the gated scale plus
    the gated bias (the variance routine's and its select's lines read and write their buffers at their own types). -/
theorem out_eq (V : Valuation τ sig (Elt F)) :
    after ops V (main_v45 : DevRef τ sig)
      = outOf (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes argument 0. -/
theorem arg0_eq (V : Valuation τ sig (Elt F)) :
    after ops V (main_arg0 : DevRef τ sig) = V (main_arg0 : DevRef τ sig) := by
  after_results_simp

/-- No operation writes argument 1. -/
theorem arg1_eq (V : Valuation τ sig (Elt F)) :
    after ops V (main_arg1 : DevRef τ sig) = V (main_arg1 : DevRef τ sig) := by
  after_results_simp

/-- No operation writes argument 2. -/
theorem arg2_eq (V : Valuation τ sig (Elt F)) :
    after ops V (main_arg2 : DevRef τ sig) = V (main_arg2 : DevRef τ sig) := by
  after_results_simp

/-- No operation writes argument 3. -/
theorem arg3_eq (V : Valuation τ sig (Elt F)) :
    after ops V (main_arg3 : DevRef τ sig) = V (main_arg3 : DevRef τ sig) := by
  after_results_simp

/-- No operation writes argument 4. -/
theorem arg4_eq (V : Valuation τ sig (Elt F)) :
    after ops V (main_arg4 : DevRef τ sig) = V (main_arg4 : DevRef τ sig) := by
  after_results_simp

/-- At the exact instance the gates are the reference's named second result. -/
theorem gatesOf_ideal (x : FVec Ideal S32x256x56x56 .f32) (fc1 : FVec Ideal S25x256 .f32) (fc2 : FVec Ideal S3x25 .f32) :
    gatesOf x fc1 fc2 = refGates x fc1 fc2 := rfl

/-- At the exact instance this is the reference's named first result. -/
theorem outOf_ideal (x : FVec Ideal S32x256x56x56 .f32) (fc1 : FVec Ideal S25x256 .f32) (fc2 : FVec Ideal S3x25 .f32)
    (gamma beta : FVec Ideal S3x256 .f32) :
    outOf x fc1 fc2 gamma beta = refOut x fc1 fc2 gamma beta := rfl

end Cert.ReferenceIdeal.Val

end
-- ==== Proof.RefRun.lean ====
/-
  The reference's run, read: every execution ends with its first result at the normalised input times the gated scale
  plus the gated bias, its second result at the gates, and the five arguments as launched.
-/
import proofs.«142900_j24163486007874_2_alg».proof.Proof.Gen.ReferenceIdeal
import proofs.«142900_j24163486007874_2_alg».proof.Proof.Gen.KernelIdeal
import proofs.«142900_j24163486007874_2_alg».proof.Proof.Terms
import proofs.«142900_j24163486007874_2_alg».proof.Proof.RefRunMain
import proofs.«142900_j24163486007874_2_alg».proof.Proof.RefRunRead
import Idealize.ShloMosaic.Lib.StableHlo.Run

noncomputable section

namespace Cert.ReferenceIdeal.Val

open Idealize.ShloMosaic Idealize.ShloMosaic.TcCoe Idealize.SL.Sem Cert.ReferenceIdeal Cert.ReferenceIdeal.Stage

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v24)
        = refGates (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- every buffer ends at the fold of the operations' results over the launch contents; the fold is read at the two
  -- results and the five arguments, and at the exact instance the two functions read are the stated ones
  (θ_run (defs (F := Ideal)) _ _).mono (fun _ h c =>
      ⟨(h c main_v45).trans ((out_eq _).trans (outOf_ideal _ _ _ _ _)),
       (h c main_v24).trans ((gates_eq _).trans (gatesOf_ideal _ _ _)),
       (h c main_arg0).trans (arg0_eq _), (h c main_arg1).trans (arg1_eq _), (h c main_arg2).trans (arg2_eq _),
       (h c main_arg3).trans (arg3_eq _), (h c main_arg4).trans (arg4_eq _)⟩)
    (run_main m ρ)

end Cert.ReferenceIdeal.Val

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.Reads.lean ====
/-
  The host operations of the two programs read at an index, on the extended reals: the sums over two and three axes
  of the four-axis input, the sum over the samples, the per-channel and per-(sample, channel) repetitions, and the
  pieces of the softmax row by row.
-/
import proofs.«142900_j24163486007874_2_alg».proof.Proof.Terms
import proofs.«142900_j24163486007874_2_alg».proof.Proof.LibCoeLift
import Idealize.ShloMosaic.Lib.ValueIdx
import Idealize.ShloMosaic.Lib.IdealHost
import Idealize.ShloMosaic.Lib.Pipeline.Value
import Idealize.ShloMosaic.PureOps.Ideal.Laws

noncomputable section

namespace Cert.Reads

open Idealize.ShloMosaic Idealize.ShloMosaic.ValueIdx

variable [Cert.KernelIdeal.Facts] [Cert.ReferenceIdeal.Facts]

/-- Dropping the two trailing axes of a four-axis index keeps its first two coordinates. -/
theorem drop_d2_3_val (i : Cert.ReferenceIdeal.S32x256x56x56.Idx) :
    ((Cert.ReferenceIdeal.Facts₀.reducesTo_S32x256x56x56_S32x256_d2_3).drop i 0).val = (i 0).val
    ∧ ((Cert.ReferenceIdeal.Facts₀.reducesTo_S32x256x56x56_S32x256_d2_3).drop i 1).val = (i 1).val :=
  ⟨Shape.ReducesTo.drop_apply_val_of_eq _ i 0 0, Shape.ReducesTo.drop_apply_val_of_eq _ i 1 1⟩

/-- Dropping every axis but the channel's of a four-axis index keeps its channel coordinate. -/
theorem drop_d0_2_3_val (i : Cert.ReferenceIdeal.S32x256x56x56.Idx) :
    ((Cert.ReferenceIdeal.Facts₀.reducesTo_S32x256x56x56_S256_d0_2_3).drop i 0).val = (i 1).val :=
  Shape.ReducesTo.drop_apply_val_of_eq _ i 0 1

/-- The reference's sum over the two trailing axes, at (b, c). -/
theorem ref_sums_at (x : FVec Ideal Cert.ReferenceIdeal.S32x256x56x56 .f32) (b : Fin 32) (c : Fin 256) :
    Cert.ReferenceIdeal.Stage.sums x (ix2 b c) = ∑ h : Fin 56, ∑ w : Fin 56, x (ix4 b c h w) := by
  unfold Cert.ReferenceIdeal.Stage.sums
  refine (hostReduceAdd_apply x _ _ _ (ix2 b c)).trans ?_
  unfold Ideal.hostReduceAdd
  rw [constant_apply, Ideal.ofBits_zero_f32, zero_add]
  refine Eq.trans ?_ (Fintype.sum_prod_type' (fun h w : Fin 56 => x (ix4 b c h w)))
  have key : ∀ i : Cert.ReferenceIdeal.S32x256x56x56.Idx,
      (Cert.ReferenceIdeal.Facts₀.reducesTo_S32x256x56x56_S32x256_d2_3).drop i = ix2 b c →
      i = ix4 b c (i 2) (i 3) := by
    intro i hi
    have h0 : (i 0).val = b.val := (drop_d2_3_val i).1.symm.trans (congrArg Fin.val (congrFun hi 0))
    have h1 : (i 1).val = c.val := (drop_d2_3_val i).2.symm.trans (congrArg Fin.val (congrFun hi 1))
    funext a
    match a with
    | ⟨0, _⟩ => exact Fin.ext h0
    | ⟨1, _⟩ => exact Fin.ext h1
    | ⟨2, _⟩ => rfl
    | ⟨3, _⟩ => rfl
  refine Finset.sum_nbij' (fun i => ((i 2 : Fin 56), (i 3 : Fin 56))) (fun p => ix4 b c p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (drop_d2_3_val _).1
    | ⟨1, _⟩ => exact Fin.ext (drop_d2_3_val _).2
  · intro i hi; exact (key i (Finset.mem_filter.1 hi).2).symm
  · intro p _; rfl
  · intro i hi; exact congrArg x (key i (Finset.mem_filter.1 hi).2)

/-- The reference's sum over samples and positions, at channel c. -/
theorem chanSum_at (y : FVec Ideal Cert.ReferenceIdeal.S32x256x56x56 .f32) (c : Fin 256) :
    Cert.ReferenceIdeal.Stage.chanSum y (ix1 c) = ∑ b : Fin 32, ∑ h : Fin 56, ∑ w : Fin 56, y (ix4 b c h w) := by
  unfold Cert.ReferenceIdeal.Stage.chanSum
  refine (hostReduceAdd_apply y _ _ _ (ix1 c)).trans ?_
  unfold Ideal.hostReduceAdd
  rw [constant_apply, Ideal.ofBits_zero_f32, zero_add]
  refine Eq.trans ?_ ((Fintype.sum_prod_type' (fun (b : Fin 32) (q : Fin 56 × Fin 56) => y (ix4 b c q.1 q.2))).trans
    (Finset.sum_congr rfl fun b _ => Fintype.sum_prod_type' (fun h w : Fin 56 => y (ix4 b c h w))))
  have key : ∀ i : Cert.ReferenceIdeal.S32x256x56x56.Idx,
      (Cert.ReferenceIdeal.Facts₀.reducesTo_S32x256x56x56_S256_d0_2_3).drop i = ix1 c →
      i = ix4 (i 0) c (i 2) (i 3) := by
    intro i hi
    have h1 : (i 1).val = c.val := (drop_d0_2_3_val i).symm.trans (congrArg Fin.val (congrFun hi 0))
    funext a
    match a with
    | ⟨0, _⟩ => rfl
    | ⟨1, _⟩ => exact Fin.ext h1
    | ⟨2, _⟩ => rfl
    | ⟨3, _⟩ => rfl
  refine Finset.sum_nbij' (fun i => ((i 0 : Fin 32), (i 2 : Fin 56), (i 3 : Fin 56))) (fun p => ix4 p.1 c p.2.1 p.2.2) ?_ ?_ ?_ ?_ ?_
  · intro i _; exact Finset.mem_univ _
  · intro p _
    refine Finset.mem_filter.2 ⟨Finset.mem_univ _, ?_⟩
    funext a
    match a with
    | ⟨0, _⟩ => exact Fin.ext (drop_d0_2_3_val _)
  · intro i hi; exact (key i (Finset.mem_filter.1 hi).2).symm
  · intro p _; rfl
  · intro i hi; exact congrArg y (key i (Finset.mem_filter.1 hi).2)

/-- The kernel program's sum over the samples, at channel c. -/
theorem colSum_at (S : FVec Ideal Cert.KernelIdeal.S32x256 .f32) (c : Fin 256) :
    Cert.KernelIdeal.Stage.colSum S (ix1 c) = ∑ b : Fin 32, S (ix2 b c) := by
  unfold Cert.KernelIdeal.Stage.colSum
  have h : Cert.KernelIdeal.S32x256.Reduces [0] Cert.KernelIdeal.S256 := by decide
  refine (hostReduceAdd_apply S _ _ _ (ix1 c)).trans ?_
  refine (Ideal.hostReduceAdd_single _ h S _ (ix1 c)).trans ?_
  rw [constant_apply, Ideal.ofBits_zero_f32, zero_add]
  refine Finset.sum_congr rfl fun k _ => congrArg S ?_
  funext a; match a with | ⟨0, _⟩ => exact Fin.ext rfl | ⟨1, _⟩ => exact Fin.ext rfl

/-- A per-channel number repeated over samples and positions, read back. -/
theorem full_at (v : FVec Ideal Cert.ReferenceIdeal.S256 .f32) (b : Fin 32) (c : Fin 256) (h w : Fin 56) :
    Cert.ReferenceIdeal.Stage.full v (ix4 b c h w) = v (ix1 c) := by
  unfold Cert.ReferenceIdeal.Stage.full
  refine (broadcastInDim_apply _ _ _ (ix4 b c h w) (ix4 (0 : Fin 1) c (0 : Fin 1) (0 : Fin 1)) ?_).trans ?_
  · intro a; match a with | ⟨0, _⟩ => rfl | ⟨1, _⟩ => rfl | ⟨2, _⟩ => rfl | ⟨3, _⟩ => rfl
  · refine broadcastInDim_apply _ _ _ _ (ix1 c) ?_
    intro a; match a with | ⟨0, _⟩ => rfl

/-- A per-(sample, channel) number repeated over the positions, read back. -/
theorem full2_at (A : FVec Ideal Cert.ReferenceIdeal.S32x256 .f32) (b : Fin 32) (c : Fin 256) (h w : Fin 56) :
    Cert.ReferenceIdeal.Stage.full2 A (ix4 b c h w) = A (ix2 b c) := by
  unfold Cert.ReferenceIdeal.Stage.full2
  refine (broadcastInDim_apply _ _ _ (ix4 b c h w) (ix4 b c (0 : Fin 1) (0 : Fin 1)) ?_).trans ?_
  · intro a; match a with | ⟨0, _⟩ => rfl | ⟨1, _⟩ => rfl | ⟨2, _⟩ => rfl | ⟨3, _⟩ => rfl
  · refine broadcastInDim_apply _ _ _ _ (ix2 b c) ?_
    intro a; match a with | ⟨0, _⟩ => rfl | ⟨1, _⟩ => rfl

/-- A per-channel number repeated over the samples, read back. -/
theorem rows_at (v : FVec Ideal Cert.KernelIdeal.S256 .f32) (b : Fin 32) (c : Fin 256) :
    Cert.KernelIdeal.Stage.rows v (ix2 b c) = v (ix1 c) := by
  unfold Cert.KernelIdeal.Stage.rows
  refine (broadcastInDim_apply _ _ _ (ix2 b c) (ix2 (0 : Fin 1) c) ?_).trans ?_
  · intro a; match a with | ⟨0, _⟩ => rfl | ⟨1, _⟩ => rfl
  · refine broadcastInDim_apply _ _ _ _ (ix1 c) ?_
    intro a; match a with | ⟨0, _⟩ => rfl

/-- The variance routine's deviation, at an index: the input minus the channel's sum divided by 100352. -/
theorem devVar_at (x : FVec Ideal Cert.ReferenceIdeal.S32x256x56x56 .f32) (b : Fin 32) (c : Fin 256) (h w : Fin 56) :
    Cert.ReferenceIdeal.Stage.devVar x (ix4 b c h w)
      = x (ix4 b c h w) - Ideal.div (Cert.ReferenceIdeal.Stage.chanSum x (ix1 c)) (Ideal.ofBits .f32 0x47C40000#32) := by
  unfold Cert.ReferenceIdeal.Stage.devVar
  refine (subf_apply _ _ _).trans ?_
  refine congrArg (x (ix4 b c h w) - ·) ?_
  refine (broadcastInDim_apply _ _ _ (ix4 b c h w) (ix4 (0 : Fin 1) c (0 : Fin 1) (0 : Fin 1)) ?_).trans ?_
  · intro a; match a with | ⟨0, _⟩ => rfl | ⟨1, _⟩ => rfl | ⟨2, _⟩ => rfl | ⟨3, _⟩ => rfl
  · refine (hostDivf_apply _ _ _).trans ?_
    refine congrArg₂ Ideal.div ?_ ?_
    · refine broadcastInDim_apply _ _ _ _ (ix1 c) ?_
      intro a; match a with | ⟨0, _⟩ => rfl
    · exact (broadcastInDim_scalar_apply _ _ _).trans (constant_apply _ _)

/-- A per-row number repeated along the three branches, read back. -/
theorem spread3_at (v : FVec Ideal Cert.KernelIdeal.S32 .f32) (b : Fin 32) (k : Fin 3) :
    Cert.KernelIdeal.Stage.spread3 v (ix2 b k) = v (ix1 b) := by
  unfold Cert.KernelIdeal.Stage.spread3
  refine (broadcastInDim_apply _ _ _ (ix2 b k) (ix2 b (0 : Fin 1)) ?_).trans ?_
  · intro a; match a with | ⟨0, _⟩ => rfl | ⟨1, _⟩ => rfl
  · refine broadcastInDim_apply _ _ _ _ (ix1 b) ?_
    intro a; match a with | ⟨0, _⟩ => rfl

/-- A row's sum over the three branches. -/
theorem rowSum3_at (e : FVec Ideal Cert.KernelIdeal.S32x3 .f32) (b : Fin 32) :
    Cert.KernelIdeal.Stage.rowSum3 e (ix1 b) = ∑ k : Fin 3, e (ix2 b k) := by
  unfold Cert.KernelIdeal.Stage.rowSum3
  have h : Cert.KernelIdeal.S32x3.Reduces [1] Cert.KernelIdeal.S32 := by decide
  refine (hostReduceAdd_apply e _ _ _ (ix1 b)).trans ?_
  refine (Ideal.hostReduceAdd_single _ h e _ (ix1 b)).trans ?_
  rw [constant_apply, Ideal.ofBits_zero_f32, zero_add]
  refine Finset.sum_congr rfl fun k _ => congrArg e ?_
  funext a; match a with | ⟨0, _⟩ => exact Fin.ext rfl | ⟨1, _⟩ => exact Fin.ext rfl

/-- A row's maximum over the three branches, from -∞. -/
theorem rowMax_at (z : FVec Ideal Cert.KernelIdeal.S32x3 .f32) (b : Fin 32) :
    Cert.KernelIdeal.Stage.rowMax z (ix1 b)
      = (Finset.univ : Finset (Fin 3)).fold max (⊥ : EReal) (fun k => z (ix2 b k)) := by
  unfold Cert.KernelIdeal.Stage.rowMax
  have h : Cert.KernelIdeal.S32x3.Reduces [1] Cert.KernelIdeal.S32 := by decide
  refine (maximumf_apply _ _ _).trans ?_
  have hbot : broadcastInDim Cert.KernelIdeal.S32 ![] Cert.KernelIdeal.Facts₀.bcast_S_S32
      (constant (F := Ideal) Cert.KernelIdeal.S_ .f32 0xFF800000#32) (ix1 b) = (⊥ : EReal) :=
    ((broadcastInDim_scalar_apply _ _ _).trans (constant_apply _ _)).trans Cert.Proof.CoeLift.ofBits_neg_inf
  rw [hbot]
  refine (max_eq_right bot_le).trans ?_
  refine (Host.reduce_eq_fold_single FloatOps.maximumf z _ _ h _ (ix1 b)).trans ?_
  have hinit : constant (F := Ideal) Cert.KernelIdeal.S_ .f32 0xFF800000#32
      (Shape.Idx.first Cert.KernelIdeal.Facts₀.h_S_) = (⊥ : EReal) :=
    (constant_apply _ _).trans Cert.Proof.CoeLift.ofBits_neg_inf
  rw [hinit]
  have hf : (z ∘ h.lift (ix1 b)) = fun k => z (ix2 b k) :=
    funext fun k => congrArg z (funext fun a => match a with | ⟨0, _⟩ => Fin.ext rfl | ⟨1, _⟩ => Fin.ext rfl)
  rw [hf]
  rfl

end Cert.Reads

end
-- ==== Proof.GatesReal.lean ====
/-
  On real inputs the gating head stays real: the pooled means, both dense layers, the leaky rectifier, the division by
  the temperature, the shifted exponentials (positive reals), their row sums (positive reals) and the quotients.
  So do the gated mixes of real per-channel parameters.
-/
import proofs.«142900_j24163486007874_2_alg».proof.Proof.Terms
import proofs.«142900_j24163486007874_2_alg».proof.Proof.LibCoeLift
import Idealize.ShloMosaic.Lib.ValueIdx
import Idealize.ShloMosaic.PureOps.Ideal.Laws

noncomputable section

namespace Cert.GatesReal

open Idealize.ShloMosaic Idealize.ShloMosaic.ValueIdx Cert.KernelIdeal Cert.KernelIdeal.Stage
open Cert.KernelIdeal.Facts₀ Cert.KernelIdeal.Facts

variable [Cert.KernelIdeal.Facts]

/-- Every entry of an array over the extended reals is a real number. -/
def IsReal {s : Shape} (v : s.Idx → EReal) : Prop := ∀ i, ∃ r : ℝ, v i = (r : EReal)

/-- Every entry is a nonzero real number. -/
def IsNonzero {s : Shape} (v : s.Idx → EReal) : Prop := ∀ i, ∃ r : ℝ, r ≠ 0 ∧ v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, hr⟩ := h i; ⟨r, hr⟩

theorem IsPos.isNonzero {s : Shape} {v : s.Idx → EReal} (h : IsPos v) : IsNonzero v :=
  fun i => let ⟨r, h0, hr⟩ := h i; ⟨r, h0.ne', hr⟩

/-! ## The four constants of the gating head -/

/-- The word of 3136 = 56 · 56. -/
theorem ofBits_3136 : Ideal.ofBits .f32 0x45440000#32 = ((3136 : ℝ) : EReal) := by
  simp [Ideal.ofBits, Ideal.ieee, -EReal.coe_mul]; norm_num

/-- The word of the temperature 30. -/
theorem ofBits_30 : Ideal.ofBits .f32 0x41F00000#32 = ((30 : ℝ) : EReal) := by
  simp [Ideal.ofBits, Ideal.ieee, -EReal.coe_mul]; norm_num

/-- The word of the rectifier's slope (the float nearest to 0.01) is a real number. -/
theorem ofBits_slope : ∃ r : ℝ, Ideal.ofBits .f32 0x3C23D70A#32 = (r : EReal) := by
  simp [Ideal.ofBits, Ideal.ieee, -EReal.coe_mul]

/-- The zero word is the real zero. -/
theorem ofBits_zero : ∃ r : ℝ, Ideal.ofBits .f32 0x00000000#32 = (r : EReal) :=
  ⟨0, by rw [Ideal.ofBits_zero_f32, EReal.coe_zero]⟩

/-! ## Layout operations: an array read at re-indexed positions -/

/-- A transpose of a real array is real. -/
theorem isReal_transpose {s t : Shape} (perm : List (Fin s.rank)) (v : s.Idx → EReal) (h : s.Transposes perm t)
    (hv : IsReal v) : IsReal (transpose t perm v h) := fun j => hv (h.src j)

/-- A broadcast of a real array is real. -/
theorem isReal_broadcastInDim {s t : Shape} (dims : Fin s.rank → Fin t.rank) (h : s.BroadcastsInDim t dims)
    (v : s.Idx → EReal) (hv : IsReal v) : IsReal (broadcastInDim t dims h v) := by
  intro j
  unfold broadcastInDim
  exact hv _

/-- A broadcast of a positive array is positive. -/
theorem isPos_broadcastInDim {s t : Shape} (dims : Fin s.rank → Fin t.rank) (h : s.BroadcastsInDim t dims)
    (v : s.Idx → EReal) (hv : IsPos v) : IsPos (broadcastInDim t dims h v) := by
  intro j
  unfold broadcastInDim
  exact hv _

/-- A broadcast splat constant reads the constant's value everywhere. -/
theorem bcast_const_apply {s t : Shape} (dims : Fin s.rank → Fin t.rank) (h : s.BroadcastsInDim t dims)
    (w : BitVec FTy.f32.bits) (j : t.Idx) :
    broadcastInDim t dims h (constant (F := Ideal) s .f32 w) j = Ideal.ofBits .f32 w := rfl

/-- A broadcast constant whose word denotes a real number is a real array. -/
theorem isReal_bcast_const {s t : Shape} (dims : Fin s.rank → Fin t.rank) (h : s.BroadcastsInDim t dims)
    (w : BitVec FTy.f32.bits) (hw : ∃ r : ℝ, Ideal.ofBits .f32 w = (r : EReal)) :
    IsReal (broadcastInDim t dims h (constant (F := Ideal) s .f32 w)) :=
  fun j => let ⟨r, hr⟩ := hw; ⟨r, (bcast_const_apply dims h w j).trans hr⟩

/-- A broadcast constant whose word denotes a nonzero real number is a nonzero array. -/
theorem isNonzero_bcast_const {s t : Shape} (dims : Fin s.rank → Fin t.rank) (h : s.BroadcastsInDim t dims)
    (w : BitVec FTy.f32.bits) (r : ℝ) (h0 : r ≠ 0) (hr : Ideal.ofBits .f32 w = (r : EReal)) :
    IsNonzero (broadcastInDim t dims h (constant (F := Ideal) s .f32 w)) :=
  fun j => ⟨r, h0, (bcast_const_apply dims h w j).trans hr⟩

/-! ## Arithmetic, entry by entry -/

/-- The quotient of a real array by a nonzero real array is real. -/
theorem isReal_divf {s : Shape} (a b : FVec Ideal s .f32) (ha : IsReal a) (hb : IsNonzero b) :
    IsReal (Host.divf a b) := by
  intro i
  obtain ⟨x, hx⟩ := ha i
  obtain ⟨y, hy0, hy⟩ := hb i
  refine ⟨x / y, ?_⟩
  show Ideal.div (a i) (b i) = _
  rw [hx, hy, Cert.Proof.CoeLift.div_coe_coe x y hy0]

/-- The product of two real arrays is real. -/
theorem isReal_mulf {s : Shape} (a b : FVec Ideal s .f32) (ha : IsReal a) (hb : IsReal b) : IsReal (mulf a b) := by
  intro i
  obtain ⟨x, hx⟩ := ha i
  obtain ⟨y, hy⟩ := hb i
  refine ⟨x * y, ?_⟩
  show a i * b i = _
  rw [hx, hy, EReal.coe_mul]

/-- The difference of two real arrays is real. -/
theorem isReal_subf {s : Shape} (a b : FVec Ideal s .f32) (ha : IsReal a) (hb : IsReal b) : IsReal (subf a b) := by
  intro i
  obtain ⟨x, hx⟩ := ha i
  obtain ⟨y, hy⟩ := hb i
  refine ⟨x - y, ?_⟩
  show a i - b i = _
  rw [hx, hy, EReal.coe_sub]

/-- A choice between two real arrays, by any mask, is real. -/
theorem isReal_select {s : Shape} (c : IVec s 1) (a b : s.Idx → EReal) (ha : IsReal a) (hb : IsReal b) :
    IsReal (select c a b) := by
  intro i
  show ∃ r : ℝ, Scalar.select (c i) (a i) (b i) = (r : EReal)
  unfold Scalar.select
  split
  · exact ha i
  · exact hb i

/-- The exponential of a real array is a positive real array. -/
theorem isPos_exp {s : Shape} (a : FVec Ideal s .f32) (ha : IsReal a) : IsPos (Host.exp a) := by
  intro i
  obtain ⟨x, hx⟩ := ha i
  refine ⟨Real.exp x, Real.exp_pos x, ?_⟩
  show Ideal.exp (a i) = _
  rw [hx, Ideal.exp_coe]

/-- A contraction of two real arrays is real: each entry is a finite sum of products of entries. -/
theorem isReal_dot {sl sr so : Shape} (d : DotDims sl sr so) (prec : Option ContractPrecision)
    (a : FVec Ideal sl .f32) (b : FVec Ideal sr .f32) (ha : IsReal a) (hb : IsReal b) :
    IsReal (Host.dotGeneral d prec a b) := by
  intro j
  choose fa hfa using ha
  choose fb hfb using hb
  refine ⟨∑ k : d.contr.Idx, fa (d.lhsIdx j k) * fb (d.rhsIdx j k), ?_⟩
  refine (Ideal.dotGeneral_apply d prec .single a b j).trans ?_
  rw [← Cert.Proof.CoeLift.coe_sum]
  refine Finset.sum_congr rfl fun k _ => ?_
  rw [hfa, hfb, EReal.coe_mul]

/-! ## Reductions along one axis

  Read at a result index, a reduction along one axis runs over that axis's coordinates (the source index with the
  coordinate inserted); which source index that is does not matter here, only that there is at least one coordinate. -/

/-- A running maximum from -∞ along a nonempty axis of a real array is real. -/
theorem isReal_reduceMax {s t u : Shape} {a : Fin s.rank} (x : FVec Ideal s .f32) (init : u.Idx → EReal)
    (h' : s.ReducesTo [a] t) (h : s.Reduces [a] t) (hu : 0 < u.numel) (hpos : 0 < s.size a)
    (hinit : init (Shape.Idx.first hu) = ⊥) (hx : IsReal x) :
    IsReal (Host.reduce (FloatOps.maximumf (F := Ideal) (φ := .f32)) x init h' hu) := by
  intro j
  choose f hf using hx
  obtain ⟨c, hc⟩ := Cert.Proof.CoeLift.fold_max_coe hpos (fun k => f (h.lift j k))
  refine ⟨c, ?_⟩
  refine (Host.reduce_eq_fold_single (FloatOps.maximumf (F := Ideal) (φ := .f32)) x init h' h hu j).trans ?_
  rw [hinit]
  refine Eq.trans ?_ hc
  show Finset.fold max (⊥ : EReal) (x ∘ h.lift j) Finset.univ
    = Finset.fold max (⊥ : EReal) (fun k => ((f (h.lift j k) : ℝ) : EReal)) Finset.univ
  exact congrArg (fun g => Finset.fold max (⊥ : EReal) g Finset.univ) (funext fun k => hf _)

/-- A sum from zero along a nonempty axis of a positive array is positive. -/
theorem isPos_reduceAdd {s t u : Shape} {a : Fin s.rank} (x : FVec Ideal s .f32) (init : u.Idx → EReal)
    (h' : s.ReducesTo [a] t) (h : s.Reduces [a] t) (hu : 0 < u.numel) (hpos : 0 < s.size a)
    (hinit : init (Shape.Idx.first hu) = 0) (hx : IsPos x) : IsPos (Host.reduceAdd x init h' hu) := by
  intro j
  choose f hf0 hf using hx
  haveI : Nonempty (Fin (s.size a)) := ⟨⟨0, hpos⟩⟩
  refine ⟨∑ k : Fin (s.size a), f (h.lift j k), Finset.sum_pos (fun k _ => hf0 _) Finset.univ_nonempty, ?_⟩
  show Ideal.hostReduceAdd h' x (init (Shape.Idx.first hu)) j = _
  refine (Ideal.hostReduceAdd_single h' h x (init (Shape.Idx.first hu)) j).trans ?_
  rw [hinit, zero_add, ← Cert.Proof.CoeLift.coe_sum]
  exact Finset.sum_congr rfl fun k _ => hf _

/-! ## The stages -/

/-- The pooled means of real sums are real. -/
theorem isReal_pooled (S : FVec Ideal S32x256 .f32) (hS : IsReal S) : IsReal (pooled S) :=
  isReal_divf _ _ hS (isNonzero_bcast_const _ _ _ 3136 (by norm_num) ofBits_3136)

/-- The first dense layer of real arrays is real. -/
theorem isReal_hidden (p : FVec Ideal S32x256 .f32) (fc1 : FVec Ideal S25x256 .f32) (hp : IsReal p) (h1 : IsReal fc1) :
    IsReal (hidden p fc1) :=
  isReal_dot _ _ _ _ hp (isReal_transpose _ _ _ h1)

/-- The leaky rectifier of a real array is real. -/
theorem isReal_leaky (h : FVec Ideal S32x25 .f32) (hh : IsReal h) : IsReal (leaky h) :=
  isReal_select _ _ _ hh (isReal_mulf _ _ (isReal_bcast_const _ _ _ ofBits_slope) hh)

/-- The second dense layer over the temperature, of real arrays, is real. -/
theorem isReal_logits (a : FVec Ideal S32x25 .f32) (fc2 : FVec Ideal S3x25 .f32) (ha : IsReal a) (h2 : IsReal fc2) :
    IsReal (logits a fc2) :=
  isReal_divf _ _ (isReal_dot _ _ _ _ ha (isReal_transpose _ _ _ h2))
    (isNonzero_bcast_const _ _ _ 30 (by norm_num) ofBits_30)

/-- The three entries of a row: the reduction of a [32, 3] array along its second axis, as a shape fact. -/
theorem reduces_rows : S32x3.Reduces [1] S32 := by decide

/-- The row maxima of a real array with three entries a row are real. -/
theorem isReal_rowMax (z : FVec Ideal S32x3 .f32) (hz : IsReal z) : IsReal (rowMax z) := by
  have hred : IsReal (Host.reduce (FloatOps.maximumf (F := Ideal) (φ := .f32)) z (constant (F := Ideal) S_ .f32 0xFF800000#32)
      reducesTo_S32x3_S32_d1 h_S_) :=
    isReal_reduceMax z _ _ reduces_rows _ (by decide) Cert.Proof.CoeLift.ofBits_neg_inf hz
  intro i
  obtain ⟨r, hr⟩ := hred i
  refine ⟨r, ?_⟩
  show max (broadcastInDim S32 ![] bcast_S_S32 (constant (F := Ideal) S_ .f32 0xFF800000#32) i) _ = _
  rw [bcast_const_apply, Cert.Proof.CoeLift.ofBits_neg_inf, hr]
  exact max_eq_right bot_le

/-- A per-row real number repeated along the row is a real array. -/
theorem isReal_spread3 (v : FVec Ideal S32 .f32) (hv : IsReal v) : IsReal (spread3 v) :=
  isReal_broadcastInDim _ _ _ (isReal_broadcastInDim _ _ _ hv)

/-- A per-row positive number repeated along the row is a positive array. -/
theorem isPos_spread3 (v : FVec Ideal S32 .f32) (hv : IsPos v) : IsPos (spread3 v) :=
  isPos_broadcastInDim _ _ _ (isPos_broadcastInDim _ _ _ hv)

/-- The shifted exponentials of a real array are positive reals. -/
theorem isPos_expShift (z : FVec Ideal S32x3 .f32) (hz : IsReal z) : IsPos (expShift z) :=
  isPos_exp _ (isReal_subf _ _ hz (isReal_spread3 _ (isReal_rowMax z hz)))

/-- The row sums of a positive array with three entries a row are positive reals. -/
theorem isPos_rowSum3 (e : FVec Ideal S32x3 .f32) (he : IsPos e) : IsPos (rowSum3 e) :=
  isPos_reduceAdd e _ _ reduces_rows _ (by decide) Ideal.ofBits_zero_f32 he

/-- The softmax of a real array is real. -/
theorem isReal_softmax (z : FVec Ideal S32x3 .f32) (hz : IsReal z) : IsReal (softmax z) :=
  isReal_divf _ _ (isPos_expShift z hz).isReal (isPos_spread3 _ (isPos_rowSum3 _ (isPos_expShift z hz))).isNonzero

/-! ## The two statements -/

/-- The gates of real sums and real weights are real. -/
theorem gates_real (S : FVec Ideal S32x256 .f32) (fc1 : FVec Ideal S25x256 .f32) (fc2 : FVec Ideal S3x25 .f32)
    (hS : IsReal S) (h1 : IsReal fc1) (h2 : IsReal fc2) : IsReal (gates S fc1 fc2) :=
  isReal_softmax _ (isReal_logits _ _ (isReal_leaky _ (isReal_hidden _ _ (isReal_pooled S hS) h1)) h2)

/-- The gated mix of real parameters by real gates is real. -/
theorem mix_real (g : FVec Ideal S32x3 .f32) (p : FVec Ideal S3x256 .f32) (hg : IsReal g) (hp : IsReal p) :
    IsReal (mix g p) :=
  isReal_dot _ _ _ _ hg hp

end Cert.GatesReal

end
-- ==== Proof.Algebra.lean ====
/-
  The real-number algebra that joins the two programs.

  For one channel, with n = 32·56·56 = 100352 entries x and mean μ = (Σ x)/n: the mean squared deviation
  (Σ (x − μ)²)/n equals (Σ x²)/n − μ², and it is nonnegative.  With r = (v + ε)^(-1/2) for that variance v and ε > 0
  a real number, the output (x − μ)·r·g + β equals x·(g·r) + (β − μ·(g·r)).  Stated on the extended reals for real data,
  in the nested-sum shapes the two programs produce.
-/
import Idealize.ShloMosaic.PureOps.Ideal
import Idealize.ShloMosaic.PureOps.Ideal.Laws
import proofs.«142900_j24163486007874_2_alg».proof.Proof.LibCoeLift

noncomputable section

namespace Cert.Algebra

open Idealize.ShloMosaic Cert.Proof.CoeLift

/-- The word 0x47C40000 denotes the real 100352. -/
theorem ofBits_count : Ideal.ofBits .f32 0x47C40000#32 = ((100352 : ℝ) : EReal) := by
  simp [Ideal.ofBits, Ideal.ieee, -EReal.coe_mul]; norm_num

/-- The word 0x3727C5AC (the float nearest 1e-5) denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- A triple sum of reals, taken in the extended reals, is the real triple sum. -/
theorem coe_sum3 (X : Fin 32 → Fin 56 → Fin 56 → ℝ) :
    (∑ b : Fin 32, ∑ h : Fin 56, ∑ w : Fin 56, ((X b h w : ℝ) : EReal))
      = ((∑ b : Fin 32, ∑ h : Fin 56, ∑ w : Fin 56, X b h w : ℝ) : EReal) := by
  simp only [coe_sum]

/-- The real identity: mean squared deviation = mean square − squared mean, over 32·56·56 entries. -/
theorem var_real (X : Fin 32 → Fin 56 → Fin 56 → ℝ) (M : ℝ)
    (hM : M = (∑ b : Fin 32, ∑ h : Fin 56, ∑ w : Fin 56, X b h w) / 100352) :
    (∑ b : Fin 32, ∑ h : Fin 56, ∑ w : Fin 56, (X b h w - M) * (X b h w - M)) / 100352
      = (∑ b : Fin 32, ∑ h : Fin 56, ∑ w : Fin 56, X b h w * X b h w) / 100352 - M * M := by
  have hs : (∑ b : Fin 32, ∑ h : Fin 56, ∑ w : Fin 56, X b h w) = M * 100352 := by rw [hM]; field_simp
  have e : ∀ b h w, (X b h w - M) * (X b h w - M) = X b h w * X b h w - 2 * M * X b h w + M * M := fun b h w => by ring
  simp only [e, Finset.sum_add_distrib, Finset.sum_sub_distrib, ← Finset.mul_sum, hs, Finset.sum_const, Finset.card_univ,
    Fintype.card_fin, nsmul_eq_mul]
  field_simp
  ring

/-- The mean squared deviation is nonnegative. -/
theorem var_nonneg (X : Fin 32 → Fin 56 → Fin 56 → ℝ) (M : ℝ) :
    0 ≤ (∑ b : Fin 32, ∑ h : Fin 56, ∑ w : Fin 56, (X b h w - M) * (X b h w - M)) / 100352 :=
  div_nonneg (Finset.sum_nonneg fun b _ => Finset.sum_nonneg fun h _ => Finset.sum_nonneg fun w _ => mul_self_nonneg _)
    (by norm_num)

/-- On the extended reals, for real data: the channel's mean is a real M, and the two programs' variances — the mean
    squared deviation from M, and the mean square minus M² — are one nonnegative real. -/
theorem moments (X : Fin 32 → Fin 56 → Fin 56 → ℝ) :
    ∃ M V : ℝ, 0 ≤ V
      ∧ Ideal.div (∑ b : Fin 32, ∑ h : Fin 56, ∑ w : Fin 56, ((X b h w : ℝ) : EReal)) ((100352 : ℝ) : EReal) = (M : EReal)
      ∧ Ideal.div (∑ b : Fin 32, ∑ h : Fin 56, ∑ w : Fin 56,
            (((X b h w : ℝ) : EReal) - (M : EReal)) * (((X b h w : ℝ) : EReal) - (M : EReal))) ((100352 : ℝ) : EReal) = (V : EReal)
      ∧ Ideal.div (∑ b : Fin 32, ∑ h : Fin 56, ∑ w : Fin 56, ((X b h w : ℝ) : EReal) * ((X b h w : ℝ) : EReal))
            ((100352 : ℝ) : EReal) - (M : EReal) * (M : EReal) = (V : EReal) := by
  have hn : (100352 : ℝ) ≠ 0 := by norm_num
  refine ⟨(∑ b : Fin 32, ∑ h : Fin 56, ∑ w : Fin 56, X b h w) / 100352,
    (∑ b : Fin 32, ∑ h : Fin 56, ∑ w : Fin 56,
      (X b h w - (∑ b : Fin 32, ∑ h : Fin 56, ∑ w : Fin 56, X b h w) / 100352)
        * (X b h w - (∑ b : Fin 32, ∑ h : Fin 56, ∑ w : Fin 56, X b h w) / 100352)) / 100352,
    var_nonneg X _, ?_, ?_, ?_⟩
  · rw [coe_sum3, div_coe_coe _ _ hn]
  · simp only [← EReal.coe_sub, ← EReal.coe_mul]
    rw [coe_sum3, div_coe_coe _ _ hn]
  · simp only [← EReal.coe_mul]
    rw [coe_sum3, div_coe_coe _ _ hn, ← EReal.coe_sub, var_real X _ rfl]

/-- The inverse square root of a nonnegative real plus a positive real is a real. -/
theorem rsqrt_real (v e : ℝ) (hv : 0 ≤ v) (he : 0 < e) : ∃ R : ℝ, Ideal.rsqrt ((v : EReal) + (e : EReal)) = (R : EReal) := by
  have hp : 0 < v + e := by linarith
  refine ⟨(Real.sqrt (v + e))⁻¹, ?_⟩
  rw [← EReal.coe_add, Ideal.rsqrt_coe, if_neg (not_lt.mpr hp.le), if_neg hp.ne']

/-- The output both ways, for real data. -/
theorem affine_eq (X M R G B : ℝ) :
    (X : EReal) * ((G : EReal) * (R : EReal)) + ((B : EReal) - (M : EReal) * ((G : EReal) * (R : EReal)))
      = (((X : EReal) - (M : EReal)) * (R : EReal)) * (G : EReal) + (B : EReal) := by
  simp only [← EReal.coe_mul, ← EReal.coe_sub, ← EReal.coe_add]
  exact congrArg _ (by ring)

end Cert.Algebra

end
-- ==== Proof.Bridge.lean ====
/-
  The two programs' results are one function of the five arrays.

  The gates: both programs feed the same gating head with the per-(sample, channel) sums, which the kernel program
  computes in its first grid and the reference by a host sum — one nested sum.
  The output: at (b, c, h, w) both are affine in x with the channel's mean μ_c, the inverse standard deviation r_c and
  the gated scale g_bc and bias β_bc; the kernel program has folded them as x·(g·r) + (β − μ·(g·r)), the reference
  computes (x − μ)·r·g + β.  The channel means are the same nested sum over the samples and positions; the variances
  — mean square minus squared mean against mean squared deviation — agree on real data, and so do the two affine
  forms once μ, r, g, β are real: μ and the variance because the input is, r because the variance is nonnegative and
  ε positive, g and β because the gates of real data are real.
-/
import proofs.«142900_j24163486007874_2_alg».proof.Proof.Terms
import proofs.«142900_j24163486007874_2_alg».proof.Proof.Reads
import proofs.«142900_j24163486007874_2_alg».proof.Proof.GatesReal
import proofs.«142900_j24163486007874_2_alg».proof.Proof.Algebra
import Idealize.ShloMosaic.Lib.KernelVsHost

noncomputable section

namespace Cert.Bridge

open Idealize.ShloMosaic Idealize.ShloMosaic.ValueIdx Cert.GatesReal

variable [Cert.KernelIdeal.Facts] [Cert.ReferenceIdeal.Facts]

/-- The reference's host sum over the positions is the kernel program's nested sum. -/
theorem sums_eq (x : FVec Ideal Cert.KernelIdeal.S32x256x56x56 .f32) :
    Cert.ReferenceIdeal.Stage.sums x = Cert.KernelIdeal.Stage.sums x := by
  funext i
  obtain ⟨b, c, rfl⟩ : ∃ (b : Fin 32) (c : Fin 256), i = ix2 b c := ⟨i 0, i 1, eq_ix2 i⟩
  exact Cert.Reads.ref_sums_at x b c

/-- The two programs' gates agree. -/
theorem gates_eq (x : FVec Ideal Cert.KernelIdeal.S32x256x56x56 .f32) (fc1 : FVec Ideal Cert.KernelIdeal.S25x256 .f32)
    (fc2 : FVec Ideal Cert.KernelIdeal.S3x25 .f32) :
    Cert.KernelIdeal.Stage.kerGates x fc1 fc2 = Cert.ReferenceIdeal.Stage.refGates x fc1 fc2 := by
  unfold Cert.KernelIdeal.Stage.kerGates Cert.ReferenceIdeal.Stage.refGates
  rw [sums_eq]

/-! ## The kernel program's per-channel and per-(sample, channel) numbers, read at an index -/

/-- A scalar constant repeated over a shape reads as the constant's value. -/
theorem overN_at (v : FVec Ideal Cert.KernelIdeal.S256 .f32) (c : Fin 256) :
    Cert.KernelIdeal.Stage.overN v (ix1 c) = Ideal.div (v (ix1 c)) (Ideal.ofBits .f32 0x47C40000#32) := rfl

theorem kmean_at (S : FVec Ideal Cert.KernelIdeal.S32x256 .f32) (c : Fin 256) :
    Cert.KernelIdeal.Stage.mean S (ix1 c) = Ideal.div (∑ b : Fin 32, S (ix2 b c)) (Ideal.ofBits .f32 0x47C40000#32) := by
  unfold Cert.KernelIdeal.Stage.mean
  rw [overN_at, Cert.Reads.colSum_at]

theorem kvar_at (S Q : FVec Ideal Cert.KernelIdeal.S32x256 .f32) (c : Fin 256) :
    Cert.KernelIdeal.Stage.var S Q (ix1 c)
      = Ideal.div (∑ b : Fin 32, Q (ix2 b c)) (Ideal.ofBits .f32 0x47C40000#32)
        - Cert.KernelIdeal.Stage.mean S (ix1 c) * Cert.KernelIdeal.Stage.mean S (ix1 c) := by
  unfold Cert.KernelIdeal.Stage.var
  rw [subf_apply, mulf_apply, overN_at, Cert.Reads.colSum_at]

theorem invStd_at (v : FVec Ideal Cert.KernelIdeal.S256 .f32) (c : Fin 256) :
    Cert.KernelIdeal.Stage.invStd v (ix1 c) = Ideal.rsqrt (v (ix1 c) + Ideal.ofBits .f32 0x3727C5AC#32) := rfl

theorem coefA_at (g : FVec Ideal Cert.KernelIdeal.S32x3 .f32) (gamma : FVec Ideal Cert.KernelIdeal.S3x256 .f32)
    (S Q : FVec Ideal Cert.KernelIdeal.S32x256 .f32) (b : Fin 32) (c : Fin 256) :
    Cert.KernelIdeal.Stage.coefA g gamma S Q (ix2 b c)
      = Cert.KernelIdeal.Stage.mix g gamma (ix2 b c) * Cert.KernelIdeal.Stage.invStd (Cert.KernelIdeal.Stage.var S Q) (ix1 c) := by
  unfold Cert.KernelIdeal.Stage.coefA
  rw [mulf_apply, Cert.Reads.rows_at]

theorem coefB_at (g : FVec Ideal Cert.KernelIdeal.S32x3 .f32) (gamma beta : FVec Ideal Cert.KernelIdeal.S3x256 .f32)
    (S Q : FVec Ideal Cert.KernelIdeal.S32x256 .f32) (b : Fin 32) (c : Fin 256) :
    Cert.KernelIdeal.Stage.coefB g gamma beta S Q (ix2 b c)
      = Cert.KernelIdeal.Stage.mix g beta (ix2 b c)
        - Cert.KernelIdeal.Stage.mean S (ix1 c) * Cert.KernelIdeal.Stage.coefA g gamma S Q (ix2 b c) := by
  unfold Cert.KernelIdeal.Stage.coefB
  rw [subf_apply, mulf_apply, Cert.Reads.rows_at]

/-! ## The reference's, read at an index -/

theorem rmean_at (x : FVec Ideal Cert.ReferenceIdeal.S32x256x56x56 .f32) (c : Fin 256) :
    Cert.ReferenceIdeal.Stage.mean x (ix1 c)
      = Ideal.div (∑ b : Fin 32, ∑ h : Fin 56, ∑ w : Fin 56, x (ix4 b c h w)) (Ideal.ofBits .f32 0x47C40000#32) := by
  rw [← Cert.Reads.chanSum_at]
  rfl

/-- The variance routine's divisor is the real 100352, which is positive: its guard passes. -/
theorem count_eq : (Cert.ReferenceIdeal.Stage.count (F := Ideal)) ix0 = ((100352 : ℝ) : EReal) := by
  show Ideal.ofBits .f32 0x47C40000#32 - (Scalar.sitofp .f32 0#32 : Ideal .f32) = _
  rw [sitofp_zero, Cert.Algebra.ofBits_count, sub_zero]

theorem rvar_at (x : FVec Ideal Cert.ReferenceIdeal.S32x256x56x56 .f32) (c : Fin 256) :
    Cert.ReferenceIdeal.Stage.var x (ix1 c)
      = Ideal.div (∑ b : Fin 32, ∑ h : Fin 56, ∑ w : Fin 56,
          Cert.ReferenceIdeal.Stage.devVar x (ix4 b c h w) * Cert.ReferenceIdeal.Stage.devVar x (ix4 b c h w))
          ((100352 : ℝ) : EReal) := by
  unfold Cert.ReferenceIdeal.Stage.var
  rw [select_apply]
  have hg : broadcastInDim Cert.ReferenceIdeal.S256 ![] Cert.ReferenceIdeal.Facts₀.bcast_S_S256
      (cmpf .ogt (Cert.ReferenceIdeal.Stage.count (F := Ideal)) (constant Cert.ReferenceIdeal.S_ .f32 0x00000000#32)) (ix1 c) = 1#1 := by
    show Ideal.cmp .ogt ((Cert.ReferenceIdeal.Stage.count (F := Ideal)) ix0) (Ideal.ofBits .f32 0x00000000#32) = 1#1
    rw [count_eq, Ideal.ofBits_zero_f32]
    unfold Ideal.cmp
    have : (0 : EReal) < ((100352 : ℝ) : EReal) := by exact_mod_cast (by norm_num : (0 : ℝ) < 100352)
    simp [this]
  rw [hg, select_one]
  show Ideal.div (Cert.ReferenceIdeal.Stage.chanSum (F := Ideal) (mulf (Cert.ReferenceIdeal.Stage.devVar x) (Cert.ReferenceIdeal.Stage.devVar x)) (ix1 c)) ((Cert.ReferenceIdeal.Stage.count (F := Ideal)) ix0) = _
  rw [count_eq, Cert.Reads.chanSum_at]
  rfl

theorem refOut_at (x : FVec Ideal Cert.ReferenceIdeal.S32x256x56x56 .f32) (fc1 : FVec Ideal Cert.ReferenceIdeal.S25x256 .f32)
    (fc2 : FVec Ideal Cert.ReferenceIdeal.S3x25 .f32) (gamma beta : FVec Ideal Cert.ReferenceIdeal.S3x256 .f32)
    (b : Fin 32) (c : Fin 256) (h w : Fin 56) :
    Cert.ReferenceIdeal.Stage.refOut x fc1 fc2 gamma beta (ix4 b c h w)
      = ((x (ix4 b c h w) - Cert.ReferenceIdeal.Stage.mean x (ix1 c))
          * Cert.KernelIdeal.Stage.invStd (Cert.ReferenceIdeal.Stage.var x) (ix1 c))
          * Cert.KernelIdeal.Stage.mix (Cert.ReferenceIdeal.Stage.refGates x fc1 fc2) gamma (ix2 b c)
        + Cert.KernelIdeal.Stage.mix (Cert.ReferenceIdeal.Stage.refGates x fc1 fc2) beta (ix2 b c) := by
  unfold Cert.ReferenceIdeal.Stage.refOut
  rw [addf_apply, mulf_apply, mulf_apply, subf_apply, Cert.Reads.full_at, Cert.Reads.full_at, Cert.Reads.full2_at,
    Cert.Reads.full2_at]

/-! ## The join -/

/-- The two programs' outputs agree on real data. -/
theorem out_eq (x : FVec Ideal Cert.KernelIdeal.S32x256x56x56 .f32) (fc1 : FVec Ideal Cert.KernelIdeal.S25x256 .f32)
    (fc2 : FVec Ideal Cert.KernelIdeal.S3x25 .f32) (gamma beta : FVec Ideal Cert.KernelIdeal.S3x256 .f32)
    (hx : IsReal x) (h1 : IsReal fc1) (h2 : IsReal fc2) (hg : IsReal gamma) (hb : IsReal beta) :
    Cert.KernelIdeal.Stage.kerOut x fc1 fc2 gamma beta = Cert.ReferenceIdeal.Stage.refOut x fc1 fc2 gamma beta := by
  funext i
  obtain ⟨b, c, h, w, rfl⟩ : ∃ (b : Fin 32) (c : Fin 256) (h w : Fin 56), i = ix4 b c h w := ⟨i 0, i 1, i 2, i 3, eq_ix4 i⟩
  rw [refOut_at, ← gates_eq]
  show x (ix4 b c h w) * Cert.KernelIdeal.Stage.coefA _ gamma _ _ (ix2 b c) + Cert.KernelIdeal.Stage.coefB _ gamma beta _ _ (ix2 b c) = _
  rw [coefB_at, coefA_at, invStd_at, invStd_at, kvar_at, kmean_at, rvar_at, rmean_at]
  -- real witnesses
  choose X hX using hx
  have hS : IsReal (Cert.KernelIdeal.Stage.sums x) := fun i => ⟨∑ h : Fin 56, ∑ w : Fin 56, X (ix4 (i 0) (i 1) h w), by
    show (∑ h : Fin 56, ∑ w : Fin 56, x (ix4 (i 0) (i 1) h w)) = _
    simp only [hX, Cert.Proof.CoeLift.coe_sum]⟩
  have hgates : IsReal (Cert.KernelIdeal.Stage.kerGates x fc1 fc2) := gates_real _ fc1 fc2 hS h1 h2
  obtain ⟨G, hG⟩ := mix_real _ gamma hgates hg (ix2 b c)
  obtain ⟨B, hB⟩ := mix_real _ beta hgates hb (ix2 b c)
  obtain ⟨M, V, hV, hM, hVr, hVk⟩ := Cert.Algebra.moments (fun b h w => X (ix4 b c h w))
  obtain ⟨e, he, hee⟩ := Cert.Algebra.ofBits_eps
  obtain ⟨Rr, hR⟩ := Cert.Algebra.rsqrt_real V e hV he
  -- the kernel program's sums are the nested sums
  have hsum : (∑ b' : Fin 32, Cert.KernelIdeal.Stage.sums x (ix2 b' c))
      = ∑ b' : Fin 32, ∑ h : Fin 56, ∑ w : Fin 56, ((X (ix4 b' c h w) : ℝ) : EReal) := by
    refine Finset.sum_congr rfl fun b' _ => ?_
    show (∑ h : Fin 56, ∑ w : Fin 56, x (ix4 b' c h w)) = _
    simp only [hX]
  have hsq : (∑ b' : Fin 32, Cert.KernelIdeal.Stage.sumsSq x (ix2 b' c))
      = ∑ b' : Fin 32, ∑ h : Fin 56, ∑ w : Fin 56, ((X (ix4 b' c h w) : ℝ) : EReal) * ((X (ix4 b' c h w) : ℝ) : EReal) := by
    refine Finset.sum_congr rfl fun b' _ => ?_
    show (∑ h : Fin 56, ∑ w : Fin 56, x (ix4 b' c h w) * x (ix4 b' c h w)) = _
    simp only [hX]
  have hdev : ∀ b' h' w', Cert.ReferenceIdeal.Stage.devVar x (ix4 b' c h' w') = ((X (ix4 b' c h' w') : ℝ) : EReal) - (M : EReal) := by
    intro b' h' w'
    rw [Cert.Reads.devVar_at, Cert.Reads.chanSum_at, hX, Cert.Algebra.ofBits_count]
    simp only [hX]
    rw [hM]
  simp only [hdev]
  rw [hsum, hsq, Cert.Algebra.ofBits_count, hM, hVk, hVr, hee, hR, hG, hB, hX]
  simp only [hX]
  rw [hM]
  exact Cert.Algebra.affine_eq _ M Rr G B

end Cert.Bridge

end
-- ==== Proof.Finite.lean ====
/-
  From the precondition to real numbers: "every input entry has absolute value below +∞" says, on the extended
  reals, that every entry of the five input arrays is a real number.
-/
import proofs.«142900_j24163486007874_2_alg».proof.Pre_finite_inputs
import proofs.«142900_j24163486007874_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The word of +∞ denotes the top of the extended reals. -/
theorem ofBits_inf : Ideal.ofBits .f32 0x7F800000#32 = (⊤ : EReal) := by
  simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry's test "|a| < +∞" holding says the entry is real. -/
theorem real_of_test (a : EReal) (h : Ideal.cmp .olt (max a (-a)) (Ideal.ofBits .f32 0x7F800000#32) = 1#1) :
    ∃ r : ℝ, a = (r : EReal) := by
  rw [ofBits_inf] at h
  refine real_of_abs_lt_top a ?_
  unfold Ideal.cmp at h
  by_contra hn
  simp [hn] at h

instance : Subsingleton S_.Idx := ⟨fun a b => funext fun d => d.elim0⟩

/-- The precondition holding of five arrays says each of them is real entry by entry. -/
theorem reals_of_pre (a0 : FVec Ideal S32x256x56x56 .f32) (a1 : FVec Ideal S25x256 .f32) (a2 : FVec Ideal S3x25 .f32)
    (a3 : FVec Ideal S3x256 .f32) (a4 : FVec Ideal S3x256 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1, andi] at h0
  obtain ⟨h123, h4⟩ := IntOp.andi_eq_one.1 h0
  obtain ⟨h12, h3⟩ := IntOp.andi_eq_one.1 h123
  obtain ⟨h1', h2'⟩ := IntOp.andi_eq_one.1 h12
  obtain ⟨h0', h1''⟩ := IntOp.andi_eq_one.1 h1'
  refine ⟨fun i => ?_, fun i => ?_, fun i => ?_, fun i => ?_, fun i => ?_⟩
  · exact real_of_test _ (Host.reduce_andi_all _ _ _ _ _ h0' i)
  · exact real_of_test _ (Host.reduce_andi_all _ _ _ _ _ h1'' i)
  · exact real_of_test _ (Host.reduce_andi_all _ _ _ _ _ h2' i)
  · exact real_of_test _ (Host.reduce_andi_all _ _ _ _ _ h3 i)
  · exact real_of_test _ (Host.reduce_andi_all _ _ _ _ _ h4 i)

end Cert.Finite

end
-- ==== Proof.lean ====
/-
  The certificate's five claims.

  Frames: the kernel program's two (word-level and idealized) are the generated frame certificates over its two grids
  and three host stretches; the reference's is its run with the results dropped.  The idealization rewrote nothing,
  so "preserves" is trivial.  The algebraic claim: the kernel program's run ends with out = x·A + B and the gates,
  the reference's with out = (x − μ)·r·(gates·γ) + gates·β and the gates; on inputs the precondition makes real
  these are one function of the five argument arrays.
-/
import proofs.«142900_j24163486007874_2_alg».proof.Defs
import proofs.«142900_j24163486007874_2_alg».proof.Proof.Gen.Kernel
import proofs.«142900_j24163486007874_2_alg».proof.Proof.Gen.Kernel.Frame
import proofs.«142900_j24163486007874_2_alg».proof.Proof.Gen.KernelIdeal
import proofs.«142900_j24163486007874_2_alg».proof.Proof.Gen.KernelIdeal.Frame
import proofs.«142900_j24163486007874_2_alg».proof.Proof.Gen.ReferenceIdeal
import proofs.«142900_j24163486007874_2_alg».proof.Proof.Gen.Pre_finite_inputs
import proofs.«142900_j24163486007874_2_alg».proof.Proof.KernelRun
import proofs.«142900_j24163486007874_2_alg».proof.Proof.RefRun
import proofs.«142900_j24163486007874_2_alg».proof.Proof.Bridge
import proofs.«142900_j24163486007874_2_alg».proof.Proof.Finite

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Val.run m ρ)

/-- Both runs, from memories agreeing on the arguments, end at the same two arrays: the precondition makes the five
    arguments real, and on real data the two programs' results are one function of them. -/
theorem algebraic : Cert.algebraic_KernelIdeal_ReferenceIdeal := by
  intro m ρ m' ρ' hpre hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Val.run m' ρ')
  · obtain ⟨hx, h1, h2, hg, hb⟩ := Cert.Finite.reals_of_pre _ _ _ _ _ (hpre c)
    rw [(hagree c).1, (hagree c).2.1, (hagree c).2.2.1, (hagree c).2.2.2.1, (hagree c).2.2.2.2]
    exact (Cert.Bridge.out_eq _ _ _ _ _ hx h1 h2 hg hb).symm
  · rw [(hagree c).1, (hagree c).2.1, (hagree c).2.2.1]
    exact (Cert.Bridge.gates_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
